-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x1600000 : Shape := ⟨2, ![2, 1600000]⟩
abbrev S50x50 : Shape := ⟨2, ![50, 50]⟩
abbrev S50 : Shape := ⟨1, ![50]⟩
abbrev S1x50 : Shape := ⟨2, ![1, 50]⟩
abbrev S1 : Shape := ⟨1, ![1]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S50x50 : S_.BroadcastsInDim S50x50 (![] : Fin 0 → Fin S50x50.rank)
  reducesTo_S50x50_S_d0_1 : S50x50.ReducesTo [0, 1] S_
  bcast_S_S50 : S_.BroadcastsInDim S50 (![] : Fin 0 → Fin S50.rank)
  reducesTo_S50_S_d0 : S50.ReducesTo [0] S_
  bcast_S_S1x50 : S_.BroadcastsInDim S1x50 (![] : Fin 0 → Fin S1x50.rank)
  reducesTo_S1x50_S_d0_1 : S1x50.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1x50 .f32) (main_arg13 : FVec F S1 .f32) (main_v48 : IVec S_ 1) (main_v49 : FVec F S50 .f32) (main_v50 : FVec F S50 .f32) : IVec S_ 1 :=
  let main_v51 : IVec S50 1 := cmpf .olt main_v49 main_v50
  let main_c_19 : IVec S_ 1 := constantI S_ 1 1#1
  let main_v52 : IVec S_ 1 := (fun x v => Host.reduce IntOp.andi x v reducesTo_S50_S_d0 h_S_) main_v51 main_c_19
  let main_v53 : IVec S_ 1 := andi main_v48 main_v52
  let main_v54 : FVec F S1x50 .f32 := Host.absf main_arg12
  let main_cst_20 : FVec F S_ .f32 := constant S_ .f32 0x7F800000#32
  let main_v55 : FVec F S1x50 .f32 := broadcastInDim S1x50 ![] bcast_S_S1x50 main_cst_20
  let main_v56 : IVec S1x50 1 := cmpf .olt main_v54 main_v55
  let main_c_21 : IVec S_ 1 := constantI S_ 1 1#1
  let main_v57 : IVec S_ 1 := (fun x v => Host.reduce IntOp.andi x v reducesTo_S1x50_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S50x50 .f32) (main_arg9 : FVec F S50 .f32) (main_arg10 : FVec F S50x50 .f32) (main_arg11 : FVec F S50 .f32) (main_arg12 : FVec F S1x50 .f32) (main_arg13 : FVec F S1 .f32) (main_v33 : IVec S_ 1) : IVec S_ 1 :=
  let main_v34 : FVec F S50x50 .f32 := Host.absf main_arg8
  let main_cst_12 : FVec F S_ .f32 := constant S_ .f32 0x7F800000#32
  let main_v35 : FVec F S50x50 .f32 := broadcastInDim S50x50 ![] bcast_S_S50x50 main_cst_12
  let main_v36 : IVec S50x50 1 := cmpf .olt main_v34 main_v35
  let main_c_13 : IVec S_ 1 := constantI S_ 1 1#1
  let main_v37 : IVec S_ 1 := (fun x v => Host.reduce IntOp.andi x v reducesTo_S50x50_S_d0_1 h_S_) main_v36 main_c_13
  let main_v38 : IVec S_ 1 := andi main_v33 main_v37
  let main_v39 : FVec F S50 .f32 := Host.absf main_arg9
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  let main_v44 : FVec F S50x50 .f32 := Host.absf main_arg10
  let main_cst_16 : FVec F S_ .f32 := constant S_ .f32 0x7F800000#32
  let main_v45 : FVec F S50x50 .f32 := broadcastInDim S50x50 ![] bcast_S_S50x50 main_cst_16
  let main_v46 : IVec S50x50 1 := cmpf .olt main_v44 main_v45
  let main_c_17 : IVec S_ 1 := constantI S_ 1 1#1
  let main_v47 : IVec S_ 1 := (fun x v => Host.reduce IntOp.andi x v reducesTo_S50x50_S_d0_1 h_S_) main_v46 main_c_17
  let main_v48 : IVec S_ 1 := andi main_v43 main_v47
  let main_v49 : FVec F S50 .f32 := Host.absf main_arg11
  let main_cst_18 : FVec F S_ .f32 := constant S_ .f32 0x7F800000#32
  let main_v50 : FVec F S50 .f32 := broadcastInDim S50 ![] bcast_S_S50 main_cst_18
  fn_part3 (F := F) main_arg12 main_arg13 main_v48 main_v49 main_v50

def fn_part1 {F : FTy → Type} [FloatOps F] (main_arg5 : FVec F S50 .f32) (main_arg6 : FVec F S50x50 .f32) (main_arg7 : FVec F S50 .f32) (main_arg8 : FVec F S50x50 .f32) (main_arg9 : FVec F S50 .f32) (main_arg10 : FVec F S50x50 .f32) (main_arg11 : FVec F S50 .f32) (main_arg12 : FVec F S1x50 .f32) (main_arg13 : FVec F S1 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50 .f32 := Host.absf main_arg5
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50x50 .f32 := Host.absf main_arg6
  let main_cst_8 : FVec F S_ .f32 := constant S_ .f32 0x7F800000#32
  let main_v25 : FVec F S50x50 .f32 := broadcastInDim S50x50 ![] bcast_S_S50x50 main_cst_8
  let main_v26 : IVec S50x50 1 := cmpf .olt main_v24 main_v25
  let main_c_9 : IVec S_ 1 := constantI S_ 1 1#1
  let main_v27 : IVec S_ 1 := (fun x v => Host.reduce IntOp.andi x v reducesTo_S50x50_S_d0_1 h_S_) main_v26 main_c_9
  let main_v28 : IVec S_ 1 := andi main_v23 main_v27
  let main_v29 : FVec F S50 .f32 := Host.absf main_arg7
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x50 .f32) (main_arg1 : IVec S2x1600000 32) (main_arg2 : FVec F S50x50 .f32) (main_arg3 : FVec F S50 .f32) (main_arg4 : FVec F S50x50 .f32) (main_arg5 : FVec F S50 .f32) (main_arg6 : FVec F S50x50 .f32) (main_arg7 : FVec F S50 .f32) (main_arg8 : FVec F S50x50 .f32) (main_arg9 : FVec F S50 .f32) (main_arg10 : FVec F S50x50 .f32) (main_arg11 : FVec F S50 .f32) (main_arg12 : FVec F S1x50 .f32) (main_arg13 : FVec F S1 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S50x50 .f32 := Host.absf main_arg2
  let main_cst_0 : FVec F S_ .f32 := constant S_ .f32 0x7F800000#32
  let main_v5 : FVec F S50x50 .f32 := broadcastInDim S50x50 ![] bcast_S_S50x50 main_cst_0
  let main_v6 : IVec S50x50 1 := cmpf .olt main_v4 main_v5
  let main_c_1 : IVec S_ 1 := constantI S_ 1 1#1
  let main_v7 : IVec S_ 1 := (fun x v => Host.reduce IntOp.andi x v reducesTo_S50x50_S_d0_1 h_S_) main_v6 main_c_1
  let main_v8 : IVec S_ 1 := andi main_v3 main_v7
  let main_v9 : FVec F S50 .f32 := Host.absf main_arg3
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50x50 .f32 := Host.absf main_arg4
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg5 main_arg6 main_arg7 main_arg8 main_arg9 main_arg10 main_arg11 main_arg12 main_arg13 main_v13 main_v16
-- ==== Kernel.lean ====
abbrev S100000x50 : Shape := ⟨2, ![100000, 50]⟩
abbrev S2x1600000 : Shape := ⟨2, ![2, 1600000]⟩
abbrev S50x50 : Shape := ⟨2, ![50, 50]⟩
abbrev S50 : Shape := ⟨1, ![50]⟩
abbrev S1x50 : Shape := ⟨2, ![1, 50]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x50 : Shape := ⟨2, ![1600000, 50]⟩
abbrev S5000x50 : Shape := ⟨2, ![5000, 50]⟩
abbrev S1x1 : Shape := ⟨2, ![1, 1]⟩
abbrev S100000x1 : Shape := ⟨2, ![100000, 1]⟩
abbrev S5000x1 : Shape := ⟨2, ![5000, 1]⟩
abbrev S50x1 : Shape := ⟨2, ![50, 1]⟩

abbrev nBuf : Space → Nat
  | .hbm => 52
  | .vmem => 24
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S50x50, .f32⟩
  | .hbm, ⟨3, _⟩ => ⟨S50, .f32⟩
  | .hbm, ⟨4, _⟩ => ⟨S50x50, .f32⟩
  | .hbm, ⟨5, _⟩ => ⟨S50, .f32⟩
  | .hbm, ⟨6, _⟩ => ⟨S50x50, .f32⟩
  | .hbm, ⟨7, _⟩ => ⟨S50, .f32⟩
  | .hbm, ⟨8, _⟩ => ⟨S50x50, .f32⟩
  | .hbm, ⟨9, _⟩ => ⟨S50, .f32⟩
  | .hbm, ⟨10, _⟩ => ⟨S50x50, .f32⟩
  | .hbm, ⟨11, _⟩ => ⟨S50, .f32⟩
  | .hbm, ⟨12, _⟩ => ⟨S1x50, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x50, .f32⟩
  | .hbm, ⟨27, _⟩ => ⟨S_, .f32⟩
  | .hbm, ⟨28, _⟩ => ⟨S100000x50, .f32⟩
  | .hbm, ⟨29, _⟩ => ⟨S1600000x1, .i32⟩
  | .hbm, ⟨30, _⟩ => ⟨S100000x50, .f32⟩
  | .hbm, ⟨31, _⟩ => ⟨S1x50, .f32⟩
  | .hbm, ⟨32, _⟩ => ⟨S1x50, .f32⟩
  | .hbm, ⟨33, _⟩ => ⟨S100000x50, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x50, .f32⟩
  | .hbm, ⟨43, _⟩ => ⟨S_, .f32⟩
  | .hbm, ⟨44, _⟩ => ⟨S100000x50, .f32⟩
  | .hbm, ⟨45, _⟩ => ⟨S1600000x1, .i32⟩
  | .hbm, ⟨46, _⟩ => ⟨S100000x50, .f32⟩
  | .hbm, ⟨47, _⟩ => ⟨S1x50, .f32⟩
  | .hbm, ⟨48, _⟩ => ⟨S1x50, .f32⟩
  | .hbm, ⟨49, _⟩ => ⟨S1x50, .f32⟩
  | .hbm, ⟨50, _⟩ => ⟨S1x1, .f32⟩
  | .hbm, ⟨51, _⟩ => ⟨S100000x1, .f32⟩
  | .local _ .vmem, ⟨0, _⟩ => ⟨S5000x50, .f32⟩
  | .local _ .vmem, ⟨1, _⟩ => ⟨S5000x50, .f32⟩
  | .local _ .vmem, ⟨2, _⟩ => ⟨S5000x50, .f32⟩
  | .local _ .vmem, ⟨3, _⟩ => ⟨S5000x50, .f32⟩
  | .local _ .vmem, ⟨4, _⟩ => ⟨S50x50, .f32⟩
  | .local _ .vmem, ⟨5, _⟩ => ⟨S1x50, .f32⟩
  | .local _ .vmem, ⟨6, _⟩ => ⟨S50x50, .f32⟩
  | .local _ .vmem, ⟨7, _⟩ => ⟨S1x50, .f32⟩
  | .local _ .vmem, ⟨8, _⟩ => ⟨S5000x50, .f32⟩
  | .local _ .vmem, ⟨9, _⟩ => ⟨S5000x50, .f32⟩
  | .local _ .vmem, ⟨10, _⟩ => ⟨S5000x50, .f32⟩
  | .local _ .vmem, ⟨11, _⟩ => ⟨S5000x50, .f32⟩
  | .local _ .vmem, ⟨12, _⟩ => ⟨S5000x50, .f32⟩
  | .local _ .vmem, ⟨13, _⟩ => ⟨S5000x50, .f32⟩
  | .local _ .vmem, ⟨14, _⟩ => ⟨S50x50, .f32⟩
  | .local _ .vmem, ⟨15, _⟩ => ⟨S1x50, .f32⟩
  | .local _ .vmem, ⟨16, _⟩ => ⟨S50x50, .f32⟩
  | .local _ .vmem, ⟨17, _⟩ => ⟨S1x50, .f32⟩
  | .local _ .vmem, ⟨18, _⟩ => ⟨S50x50, .f32⟩
  | .local _ .vmem, ⟨19, _⟩ => ⟨S1x50, .f32⟩
  | .local _ .vmem, ⟨20, _⟩ => ⟨S1x50, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x50 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50x50 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x50 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S50x50 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x50 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x50 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  shapeCasts_S50_S1x50 : S50.ShapeCasts S1x50
  inb_S5000x50_S5000x50_0_0 : ∀ a, (![0, 0] : Fin 2 → Nat) a + S5000x50.size a ≤ S5000x50.size a
  h_S5000x50 : 0 < S5000x50.numel
  shapeCasts_S5000x50_S5000x50 : S5000x50.ShapeCasts S5000x50
  bitsLt_bf16_f32 : FTy.bits .bf16 < FTy.bits .f32
  inb_S50x50_S50x50_0_0 : ∀ a, (![0, 0] : Fin 2 → Nat) a + S50x50.size a ≤ S50x50.size a
  h_S50x50 : 0 < S50x50.numel
  transposes_S50x50_p1_0_S50x50 : S50x50.Transposes [1, 0] S50x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S5000x50 : S1x50.Broadcasts S5000x50
  shapeCasts_S1_S1x1 : S1.ShapeCasts S1x1
  transposes_S1x50_p1_0_S50x1 : S1x50.Transposes [1, 0] S50x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S5000x50_S50x50_S5000x50_1_0_0_1_n_n_wf : DotDims.WF S5000x50 S50x50 S5000x50 [1] [0] [0] [1] [] []
  dot_S5000x50_S50x1_S5000x1_1_0_0_1_n_n_wf : DotDims.WF S5000x50 S50x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x50.size a ≤ S100000x50.size a
  hwx0_0 : ∀ i : grid0.Coords, EltTy.bits .f32 = 32 ∨ (Rect.block (s := S100000x50) S5000x50.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x50.size a ≤ S100000x50.size a
  hwx0_1 : ∀ i : grid0.Coords, EltTy.bits .f32 = 32 ∨ (Rect.block (s := S100000x50) S5000x50.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x50.size a ≤ S50x50.size a
  hwx0_2 : ∀ i : grid0.Coords, EltTy.bits .f32 = 32 ∨ (Rect.block (s := S50x50) S50x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x50.size a ≤ S50x50.size a
  hwx0_4 : ∀ i : grid0.Coords, EltTy.bits .f32 = 32 ∨ (Rect.block (s := S50x50) S50x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x50.size a ≤ S1x50.size a
  hwx0_5 : ∀ i : grid0.Coords, EltTy.bits .f32 = 32 ∨ (Rect.block (s := S1x50) S1x50.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x50.size a ≤ S100000x50.size a
  hwx0_6 : ∀ i : grid0.Coords, EltTy.bits .f32 = 32 ∨ (Rect.block (s := S100000x50) S5000x50.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x50.size a ≤ S100000x50.size a
  hwx1_0 : ∀ i : grid1.Coords, EltTy.bits .f32 = 32 ∨ (Rect.block (s := S100000x50) S5000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x50.size a ≤ S100000x50.size a
  hwx1_1 : ∀ i : grid1.Coords, EltTy.bits .f32 = 32 ∨ (Rect.block (s := S100000x50) S5000x50.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x50.size a ≤ S50x50.size a
  hwx1_2 : ∀ i : grid1.Coords, EltTy.bits .f32 = 32 ∨ (Rect.block (s := S50x50) S50x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50.size a ≤ S1x50.size a
  hwx1_3 : ∀ i : grid1.Coords, EltTy.bits .f32 = 32 ∨ (Rect.block (s := S1x50) S1x50.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x50.size a ≤ S50x50.size a
  hwx1_4 : ∀ i : grid1.Coords, EltTy.bits .f32 = 32 ∨ (Rect.block (s := S50x50) S50x50.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x50.size a ≤ S1x50.size a
  hwx1_5 : ∀ i : grid1.Coords, EltTy.bits .f32 = 32 ∨ (Rect.block (s := S1x50) S1x50.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S50x50.size a ≤ S50x50.size a
  hwx1_6 : ∀ i : grid1.Coords, EltTy.bits .f32 = 32 ∨ (Rect.block (s := S50x50) S50x50.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x50.size a ≤ S1x50.size a
  hwx1_7 : ∀ i : grid1.Coords, EltTy.bits .f32 = 32 ∨ (Rect.block (s := S1x50) S1x50.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x50.size a ≤ S1x50.size a
  hwx1_8 : ∀ i : grid1.Coords, EltTy.bits .f32 = 32 ∨ (Rect.block (s := S1x50) S1x50.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S5000x50_S50x50_S5000x50_1_0_0_1_n_n : DotDims S5000x50 S50x50 S5000x50 where
  lhsContracting := [1]
  rhsContracting := [0]
  lhsNonContracting := [0]
  rhsNonContracting := [1]
  lhsBatch := []
  rhsBatch := []
  wf := dot_S5000x50_S50x50_S5000x50_1_0_0_1_n_n_wf
def dot_S5000x50_S50x1_S5000x1_1_0_0_1_n_n : DotDims S5000x50 S50x1 S5000x1 where
  lhsContracting := [1]
  rhsContracting := [0]
  lhsNonContracting := [0]
  rhsNonContracting := [1]
  lhsBatch := []
  rhsBatch := []
  wf := dot_S5000x50_S50x1_S5000x1_1_0_0_1_n_n_wf

abbrev win0_0 : Pipeline.Window sig grid0 :=
  Pipeline.Window.ofSpec (Memref.whole main_arg0) S5000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S50x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x50.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S5000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x50.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S50x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S50x50.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x50.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S50x50.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x50.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S1x50.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x50 : Shape := ⟨2, ![100000, 50]⟩
abbrev S2x1600000 : Shape := ⟨2, ![2, 1600000]⟩
abbrev S50x50 : Shape := ⟨2, ![50, 50]⟩
abbrev S50 : Shape := ⟨1, ![50]⟩
abbrev S1x50 : Shape := ⟨2, ![1, 50]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x50 : Shape := ⟨2, ![1600000, 50]⟩
abbrev S50x1 : Shape := ⟨2, ![50, 1]⟩
abbrev S100000x1 : Shape := ⟨2, ![100000, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x50, .f32⟩
  | .hbm, ⟨1, _⟩ => ⟨S2x1600000, .i32⟩
  | .hbm, ⟨2, _⟩ => ⟨S50x50, .f32⟩
  | .hbm, ⟨3, _⟩ => ⟨S50, .f32⟩
  | .hbm, ⟨4, _⟩ => ⟨S50x50, .f32⟩
  | .hbm, ⟨5, _⟩ => ⟨S50, .f32⟩
  | .hbm, ⟨6, _⟩ => ⟨S50x50, .f32⟩
  | .hbm, ⟨7, _⟩ => ⟨S50, .f32⟩
  | .hbm, ⟨8, _⟩ => ⟨S50x50, .f32⟩
  | .hbm, ⟨9, _⟩ => ⟨S50, .f32⟩
  | .hbm, ⟨10, _⟩ => ⟨S50x50, .f32⟩
  | .hbm, ⟨11, _⟩ => ⟨S50, .f32⟩
  | .hbm, ⟨12, _⟩ => ⟨S1x50, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x50, .f32⟩
  | .hbm, ⟨27, _⟩ => ⟨S_, .f32⟩
  | .hbm, ⟨28, _⟩ => ⟨S100000x50, .f32⟩
  | .hbm, ⟨29, _⟩ => ⟨S1600000x1, .i32⟩
  | .hbm, ⟨30, _⟩ => ⟨S100000x50, .f32⟩
  | .hbm, ⟨31, _⟩ => ⟨S100000x50, .f32⟩
  | .hbm, ⟨32, _⟩ => ⟨S50x50, .f32⟩
  | .hbm, ⟨33, _⟩ => ⟨S100000x50, .f32⟩
  | .hbm, ⟨34, _⟩ => ⟨S1x50, .f32⟩
  | .hbm, ⟨35, _⟩ => ⟨S100000x50, .f32⟩
  | .hbm, ⟨36, _⟩ => ⟨S100000x50, .f32⟩
  | .hbm, ⟨37, _⟩ => ⟨S50x50, .f32⟩
  | .hbm, ⟨38, _⟩ => ⟨S100000x50, .f32⟩
  | .hbm, ⟨39, _⟩ => ⟨S1x50, .f32⟩
  | .hbm, ⟨40, _⟩ => ⟨S100000x50, .f32⟩
  | .hbm, ⟨41, _⟩ => ⟨S100000x50, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x50, .f32⟩
  | .hbm, ⟨51, _⟩ => ⟨S_, .f32⟩
  | .hbm, ⟨52, _⟩ => ⟨S100000x50, .f32⟩
  | .hbm, ⟨53, _⟩ => ⟨S1600000x1, .i32⟩
  | .hbm, ⟨54, _⟩ => ⟨S100000x50, .f32⟩
  | .hbm, ⟨55, _⟩ => ⟨S100000x50, .f32⟩
  | .hbm, ⟨56, _⟩ => ⟨S50x50, .f32⟩
  | .hbm, ⟨57, _⟩ => ⟨S100000x50, .f32⟩
  | .hbm, ⟨58, _⟩ => ⟨S1x50, .f32⟩
  | .hbm, ⟨59, _⟩ => ⟨S100000x50, .f32⟩
  | .hbm, ⟨60, _⟩ => ⟨S100000x50, .f32⟩
  | .hbm, ⟨61, _⟩ => ⟨S50x50, .f32⟩
  | .hbm, ⟨62, _⟩ => ⟨S100000x50, .f32⟩
  | .hbm, ⟨63, _⟩ => ⟨S1x50, .f32⟩
  | .hbm, ⟨64, _⟩ => ⟨S100000x50, .f32⟩
  | .hbm, ⟨65, _⟩ => ⟨S100000x50, .f32⟩
  | .hbm, ⟨66, _⟩ => ⟨S50x50, .f32⟩
  | .hbm, ⟨67, _⟩ => ⟨S100000x50, .f32⟩
  | .hbm, ⟨68, _⟩ => ⟨S1x50, .f32⟩
  | .hbm, ⟨69, _⟩ => ⟨S100000x50, .f32⟩
  | .hbm, ⟨70, _⟩ => ⟨S100000x50, .f32⟩
  | .hbm, ⟨71, _⟩ => ⟨S_, .f32⟩
  | .hbm, ⟨72, _⟩ => ⟨S100000x50, .f32⟩
  | .hbm, ⟨73, _⟩ => ⟨S100000x50, .f32⟩
  | .hbm, ⟨74, _⟩ => ⟨S50x1, .f32⟩
  | .hbm, ⟨75, _⟩ => ⟨S100000x1, .f32⟩
  | .hbm, ⟨76, _⟩ => ⟨S1x1, .f32⟩
  | .hbm, ⟨77, _⟩ => ⟨S100000x1, .f32⟩
  | .hbm, ⟨78, _⟩ => ⟨S100000x1, .f32⟩
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_cst : Ref sig .tc := ⟨.hbm, 71, rfl⟩
abbrev main_call0_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x50 : S_.BroadcastsInDim S100000x50 (![] : Fin 0 → Fin S100000x50.rank)
  transposes_S50x50_S50x50_1_0 : S50x50.Transposes [1, 0] S50x50
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  transposes_S1x50_S50x1_1_0 : S1x50.Transposes [1, 0] S50x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x50_S1600000x1_S1600000x50_1_0_n_n_0_1_150_wf : GatherDims.WF S100000x50 S1600000x1 S1600000x50 [1] [0] [] [0] [] 1 ![1, 50]
  scatter_S100000x50_S1600000x1_S1600000x50_1_0_0_1_wf : ScatterDims.WF S100000x50 S1600000x1 S1600000x50 [1] [0] [0] 1
  dot_S100000x50_S50x50_S100000x50_1_0_0_1_n_n_wf : DotDims.WF S100000x50 S50x50 S100000x50 [1] [0] [0] [1] [] []
  dot_S100000x50_S50x1_S100000x1_1_0_0_1_n_n_wf : DotDims.WF S100000x50 S50x1 S100000x1 [1] [0] [0] [1] [] []

variable [Facts₀]

def gather_S100000x50_S1600000x1_S1600000x50_1_0_n_n_0_1_150 : GatherDims S100000x50 S1600000x1 S1600000x50 where
  offsetDims := [1]
  collapsedSliceDims := [0]
  operandBatchingDims := []
  startIndicesBatchingDims := []
  startIndexMap := [0]
  indexVectorDim := 1
  sliceSizes := ![1, 50]
  wf := gather_S100000x50_S1600000x1_S1600000x50_1_0_n_n_0_1_150_wf
def scatter_S100000x50_S1600000x1_S1600000x50_1_0_0_1 : ScatterDims S100000x50 S1600000x1 S1600000x50 where
  updateWindowDims := [1]
  insertedWindowDims := [0]
  scatterDimsToOperandDims := [0]
  indexVectorDim := 1
  wf := scatter_S100000x50_S1600000x1_S1600000x50_1_0_0_1_wf
def dot_S100000x50_S50x50_S100000x50_1_0_0_1_n_n : DotDims S100000x50 S50x50 S100000x50 where
  lhsContracting := [1]
  rhsContracting := [0]
  lhsNonContracting := [0]
  rhsNonContracting := [1]
  lhsBatch := []
  rhsBatch := []
  wf := dot_S100000x50_S50x50_S100000x50_1_0_0_1_n_n_wf
def dot_S100000x50_S50x1_S100000x1_1_0_0_1_n_n : DotDims S100000x50 S50x1 S100000x1 where
  lhsContracting := [1]
  rhsContracting := [0]
  lhsNonContracting := [0]
  rhsNonContracting := [1]
  lhsBatch := []
  rhsBatch := []
  wf := dot_S100000x50_S50x1_S100000x1_1_0_0_1_n_n_wf

class Facts : Prop extends Facts₀ where

variable [Facts]
-- ==== Proof.KNamedRun.lean ====
/-
  The idealized kernel's run with its result array named.

  @main is four segments: the host operations before the first pallas_call, that call, the host operations between the
  two calls, the second call. The contents of the TensorCore's buffers at the four boundaries are a fold from the launch
  memory (`W0` … `W4`): a host stretch applies its operations, a call replaces its windows' arrays by what its
  write-backs leave. Every weakly fair execution terminates with every unscoped buffer at the last boundary's contents
  `W4`; read at the result buffer that names the result, and read at the arguments it says they are as launched.
-/
import proofs.«177059_j90323162235465_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

end Cert.KernelIdeal.Named

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.KBody.lean ====
/-
  What the two kernel bodies compute on one block of 5000 rows, read at an index.

  Both bodies are chains of the same step on a block `h : [5000, 50]`: round to bf16 (the identity on extended reals),
  multiply by the transposed weight matrix into a zero accumulator, add the bias row broadcast down the block. At
  `(p, q)` the step reads `Σ_k h (p, k) · w (q, k) + b (0, q)` (`layer_apply`). The first body applies it twice to the
  sum of its two input blocks; the second three times, clamps below at the f32 zero and contracts against one weight
  row, plus a bias.
-/
import proofs.«177059_j90323162235465_1_alg».proof.Proof.Gen.KernelIdeal.Skeleton
import proofs.«177059_j90323162235465_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## Where the two matrix products' dimension numbers send an output index and a contraction index -/

theorem sq_l0 (i : S5000x50.Idx) (q : dot_S5000x50_S50x50_S5000x50_1_0_0_1_n_n.contr.Idx) :
    (dot_S5000x50_S50x50_S5000x50_1_0_0_1_n_n.lhsIdx i q 0).val = (i 0).val := by
  unfold DotDims.lhsIdx
  rw [dif_neg (show ¬(0 : Fin S5000x50.rank) ∈ dot_S5000x50_S50x50_S5000x50_1_0_0_1_n_n.lhsBatch by decide),
    dif_pos (show (0 : Fin S5000x50.rank) ∈ dot_S5000x50_S50x50_S5000x50_1_0_0_1_n_n.lhsNonContracting by decide)]
  rfl
theorem sq_l1 (i : S5000x50.Idx) (q : dot_S5000x50_S50x50_S5000x50_1_0_0_1_n_n.contr.Idx) :
    (dot_S5000x50_S50x50_S5000x50_1_0_0_1_n_n.lhsIdx i q 1).val = (q ⟨0, by decide⟩).val :=
  dot_S5000x50_S50x50_S5000x50_1_0_0_1_n_n.lhsIdx_val_of_single rfl i q
theorem sq_r0 (i : S5000x50.Idx) (q : dot_S5000x50_S50x50_S5000x50_1_0_0_1_n_n.contr.Idx) :
    (dot_S5000x50_S50x50_S5000x50_1_0_0_1_n_n.rhsIdx i q 0).val = (q ⟨0, by decide⟩).val :=
  dot_S5000x50_S50x50_S5000x50_1_0_0_1_n_n.rhsIdx_val_of_single rfl i q
theorem sq_r1 (i : S5000x50.Idx) (q : dot_S5000x50_S50x50_S5000x50_1_0_0_1_n_n.contr.Idx) :
    (dot_S5000x50_S50x50_S5000x50_1_0_0_1_n_n.rhsIdx i q 1).val = (i 1).val := by
  unfold DotDims.rhsIdx
  rw [dif_neg (show ¬(1 : Fin S50x50.rank) ∈ dot_S5000x50_S50x50_S5000x50_1_0_0_1_n_n.rhsBatch by decide),
    dif_pos (show (1 : Fin S50x50.rank) ∈ dot_S5000x50_S50x50_S5000x50_1_0_0_1_n_n.rhsNonContracting by decide)]
  rfl

theorem col_l0 (i : S5000x1.Idx) (q : dot_S5000x50_S50x1_S5000x1_1_0_0_1_n_n.contr.Idx) :
    (dot_S5000x50_S50x1_S5000x1_1_0_0_1_n_n.lhsIdx i q 0).val = (i 0).val := by
  unfold DotDims.lhsIdx
  rw [dif_neg (show ¬(0 : Fin S5000x50.rank) ∈ dot_S5000x50_S50x1_S5000x1_1_0_0_1_n_n.lhsBatch by decide),
    dif_pos (show (0 : Fin S5000x50.rank) ∈ dot_S5000x50_S50x1_S5000x1_1_0_0_1_n_n.lhsNonContracting by decide)]
  rfl
theorem col_l1 (i : S5000x1.Idx) (q : dot_S5000x50_S50x1_S5000x1_1_0_0_1_n_n.contr.Idx) :
    (dot_S5000x50_S50x1_S5000x1_1_0_0_1_n_n.lhsIdx i q 1).val = (q ⟨0, by decide⟩).val :=
  dot_S5000x50_S50x1_S5000x1_1_0_0_1_n_n.lhsIdx_val_of_single rfl i q
theorem col_r0 (i : S5000x1.Idx) (q : dot_S5000x50_S50x1_S5000x1_1_0_0_1_n_n.contr.Idx) :
    (dot_S5000x50_S50x1_S5000x1_1_0_0_1_n_n.rhsIdx i q 0).val = (q ⟨0, by decide⟩).val :=
  dot_S5000x50_S50x1_S5000x1_1_0_0_1_n_n.rhsIdx_val_of_single rfl i q
theorem col_r1 (i : S5000x1.Idx) (q : dot_S5000x50_S50x1_S5000x1_1_0_0_1_n_n.contr.Idx) :
    (dot_S5000x50_S50x1_S5000x1_1_0_0_1_n_n.rhsIdx i q 1).val = (i 1).val := by
  unfold DotDims.rhsIdx
  rw [dif_neg (show ¬(1 : Fin S50x1.rank) ∈ dot_S5000x50_S50x1_S5000x1_1_0_0_1_n_n.rhsBatch by decide),
    dif_pos (show (1 : Fin S50x1.rank) ∈ dot_S5000x50_S50x1_S5000x1_1_0_0_1_n_n.rhsNonContracting by decide)]
  rfl

/-! ## One linear layer of a block -/

/-- The block `h` rounded to bf16, times the transposed rounded weights into zero, plus the bias row: at `(p, q)` it is
    `Σ_k h (p, k) · w (q, k) + b (0, q)`. -/
theorem layer_apply (h : FVec Ideal S5000x50 .f32) (w : FVec Ideal S50x50 .f32) (b : FVec Ideal S1x50 .f32) (p : Fin 5000) (q : Fin 50) :
    addf (matmul dot_S5000x50_S50x50_S5000x50_1_0_0_1_n_n none (truncf .bf16 h bitsLt_bf16_f32)
        (transpose S50x50 [1, 0] (truncf .bf16 w bitsLt_bf16_f32) transposes_S50x50_p1_0_S50x50) (constant S5000x50 .f32 0x00000000#32))
      (broadcastTo S5000x50 (shapeCast S1x50 b shapeCasts_S1x50_S1x50) broadcasts_S1x50_S5000x50) (ix2 p q)
      = (∑ k : Fin 50, h (ix2 p k) * w (ix2 q k)) + b (ix2 (0 : Fin 1) q) := by
  rw [addf_apply, shapeCast_self, broadcastTo_1b_ab_apply]
  refine congrArg (· + b (ix2 (0 : Fin 1) q)) ?_
  refine (Cert.LibPlainMatmul.matmul_zero_at dot_S5000x50_S50x50_S5000x50_1_0_0_1_n_n none rfl rfl sq_l0 sq_l1 sq_r0 sq_r1 _ _ p q).trans ?_
  refine Finset.sum_congr rfl fun k _ => ?_
  rw [truncf_apply, transpose_ix2_apply, truncf_apply]

/-! ## The first body's stored value -/

theorem k0_pay1_apply (x a : FVec Ideal S5000x50 .f32) (w1 : FVec Ideal S50x50 .f32) (b1 : FVec Ideal S1x50 .f32)
    (w2 : FVec Ideal S50x50 .f32) (b2 : FVec Ideal S1x50 .f32) (p : Fin 5000) (q : Fin 50) :
    k0_pay1 (F := Ideal) x a w1 b1 w2 b2 (ix2 p q)
      = (∑ k : Fin 50, ((∑ k' : Fin 50, (x (ix2 p k') + a (ix2 p k')) * w1 (ix2 k k')) + b1 (ix2 (0 : Fin 1) k)) * w2 (ix2 q k))
        + b2 (ix2 (0 : Fin 1) q) := by
  unfold k0_pay1
  refine (layer_apply _ w2 b2 p q).trans ?_
  refine congrArg (· + b2 (ix2 (0 : Fin 1) q)) (Finset.sum_congr rfl fun k _ => ?_)
  refine congrArg (· * w2 (ix2 q k)) ?_
  refine (layer_apply _ w1 b1 p k).trans ?_
  refine congrArg (· + b1 (ix2 (0 : Fin 1) k)) (Finset.sum_congr rfl fun k' _ => ?_)
  rw [shapeCast_self, addf_apply]

/-! ## The second body's stored value -/

/-- Three layers on the sum of the two input blocks, at `(p, k)`. -/
theorem three_layers_apply (x a : FVec Ideal S5000x50 .f32) (w1 : FVec Ideal S50x50 .f32) (b1 : FVec Ideal S1x50 .f32)
    (w2 : FVec Ideal S50x50 .f32) (b2 : FVec Ideal S1x50 .f32) (w3 : FVec Ideal S50x50 .f32) (b3 : FVec Ideal S1x50 .f32)
    (p : Fin 5000) (k : Fin 50) :
    k1_pay2 (F := Ideal) x a w1 b1 w2 b2 w3 b3 (ix2 p k)
      = max ((∑ k3 : Fin 50, ((∑ k2 : Fin 50, ((∑ k1 : Fin 50, (x (ix2 p k1) + a (ix2 p k1)) * w1 (ix2 k2 k1)) + b1 (ix2 (0 : Fin 1) k2))
            * w2 (ix2 k3 k2)) + b2 (ix2 (0 : Fin 1) k3)) * w3 (ix2 k k3)) + b3 (ix2 (0 : Fin 1) k))
          (Ideal.ofBits .f32 0x00000000#32) := by
  unfold k1_pay2
  rw [truncf_apply, maximumf_apply]
  refine congrArg₂ max ?_ rfl
  refine (layer_apply _ w3 b3 p k).trans ?_
  refine congrArg (· + b3 (ix2 (0 : Fin 1) k)) (Finset.sum_congr rfl fun k3 _ => ?_)
  refine congrArg (· * w3 (ix2 k k3)) ?_
  refine (layer_apply _ w2 b2 p k3).trans ?_
  refine congrArg (· + b2 (ix2 (0 : Fin 1) k3)) (Finset.sum_congr rfl fun k2 _ => ?_)
  refine congrArg (· * w2 (ix2 k3 k2)) ?_
  refine (layer_apply _ w1 b1 p k2).trans ?_
  refine congrArg (· + b1 (ix2 (0 : Fin 1) k2)) (Finset.sum_congr rfl fun k1 _ => ?_)
  rw [shapeCast_self, shapeCast_self, addf_apply]

/-- The contraction of a block `g` against the weight row `w4`, plus the bias: at `(p, u)` it is `Σ_k g (p, k) · w4 (u, k) + b4 (0, u)`. -/
theorem k1_pay1_apply (g : FVec Ideal S5000x50 .bf16) (w4 : FVec Ideal S1x50 .f32) (b4 : FVec Ideal S1x1 .f32) (p : Fin 5000) (u : Fin 1) :
    k1_pay1 (F := Ideal) g (k1_pay3 (F := Ideal) w4) b4 (ix2 p u) = (∑ k : Fin 50, g (ix2 p k) * w4 (ix2 u k)) + b4 (ix2 (0 : Fin 1) u) := by
  unfold k1_pay1 k1_pay3
  rw [addf_apply, shapeCast_self, broadcastTo_1b_ab_apply]
  refine congrArg (· + b4 (ix2 (0 : Fin 1) u)) ?_
  refine (Cert.LibPlainMatmul.matmul_zero_at dot_S5000x50_S50x1_S5000x1_1_0_0_1_n_n none rfl rfl col_l0 col_l1 col_r0 col_r1 _ _ p u).trans ?_
  refine Finset.sum_congr rfl fun k _ => ?_
  rw [transpose_ix2_apply, truncf_apply]

end Cert.KernelIdeal.Body

end
-- ==== Proof.Spec.lean ====
/-
  The function both programs compute, written once over literal shapes and with no program in sight.

  A node table `h : [100000, 50]`, a weight matrix `w : [50, 50]` (rows = output features) and a bias `b` give the
  linear layer `lin h w b (r, j) = Σ_k h (r, k) · w (j, k) + b j`: the product with the TRANSPOSED matrix, as a
  torch `nn.Linear` applies it. A graph-convolution layer adds to the table an aggregate `a` of the same shape (the
  sum over incoming edges of the source rows: its exact form is irrelevant here, only that both programs feed the same
  table into the same aggregation) and applies two linear layers with no activation between them. The head applies a
  third linear layer, clamps below at `z` (the value of the f32 zero word) and contracts the 50 features against
  one weight row, plus one bias. `network` chains two convolutions, each aggregating the table it is applied to,
  and the head.
-/
import Idealize.ShloMosaic.PureOps.Ideal
import Idealize.ShloMosaic.Lib.ValueIdx

noncomputable section

open scoped BigOperators

namespace Cert.GinSpec

open Idealize.ShloMosaic Idealize.ShloMosaic.ValueIdx

/-- The node table's shape, a square weight matrix's, and the result column's. -/
abbrev Nodes : Shape := ⟨2, ![100000, 50]⟩
abbrev Sq : Shape := ⟨2, ![50, 50]⟩
abbrev Col : Shape := ⟨2, ![100000, 1]⟩

/-- One linear layer `h · wᵀ + b`, the bias given feature by feature. -/
def lin (h : FVec Ideal Nodes .f32) (w : FVec Ideal Sq .f32) (b : Fin 50 → EReal) : FVec Ideal Nodes .f32 :=
  fun i => (∑ k : Fin 50, h (ix2 (i 0) k) * w (ix2 (i 1) k)) + b (i 1)

theorem lin_apply (h : FVec Ideal Nodes .f32) (w : FVec Ideal Sq .f32) (b : Fin 50 → EReal) (r : Fin 100000) (j : Fin 50) :
    lin h w b (ix2 r j) = (∑ k : Fin 50, h (ix2 r k) * w (ix2 j k)) + b j := rfl

/-- A convolution layer on the table `x` with aggregate `a`: two linear layers of `x + a`. -/
def conv (x a : FVec Ideal Nodes .f32) (w1 : FVec Ideal Sq .f32) (b1 : Fin 50 → EReal) (w2 : FVec Ideal Sq .f32)
    (b2 : Fin 50 → EReal) : FVec Ideal Nodes .f32 :=
  lin (lin (fun i => x i + a i) w1 b1) w2 b2

theorem conv_apply (x a : FVec Ideal Nodes .f32) (w1 : FVec Ideal Sq .f32) (b1 : Fin 50 → EReal) (w2 : FVec Ideal Sq .f32)
    (b2 : Fin 50 → EReal) (r : Fin 100000) (j : Fin 50) :
    conv x a w1 b1 w2 b2 (ix2 r j)
      = (∑ k : Fin 50, ((∑ k' : Fin 50, (x (ix2 r k') + a (ix2 r k')) * w1 (ix2 k k')) + b1 k) * w2 (ix2 j k)) + b2 j := rfl

/-- The head on the table `h`: a linear layer, the clamp below at `z`, the contraction against the weight row `w3`, the
    bias `b3`. -/
def head (h : FVec Ideal Nodes .f32) (w : FVec Ideal Sq .f32) (b : Fin 50 → EReal) (z : EReal) (w3 : Fin 50 → EReal)
    (b3 : EReal) : FVec Ideal Col .f32 :=
  fun i => (∑ k : Fin 50, max (lin h w b (ix2 (i 0) k)) z * w3 k) + b3

theorem head_apply (h : FVec Ideal Nodes .f32) (w : FVec Ideal Sq .f32) (b : Fin 50 → EReal) (z : EReal) (w3 : Fin 50 → EReal)
    (b3 : EReal) (r : Fin 100000) (u : Fin 1) :
    head h w b z w3 b3 (ix2 r u) = (∑ k : Fin 50, max ((∑ k' : Fin 50, h (ix2 r k') * w (ix2 k k')) + b k) z * w3 k) + b3 := rfl

/-- The whole network: two convolutions, each on the table before it and that table's aggregate, then the head. -/
def network (agg : FVec Ideal Nodes .f32 → FVec Ideal Nodes .f32) (x : FVec Ideal Nodes .f32)
    (c1w1 : FVec Ideal Sq .f32) (c1b1 : Fin 50 → EReal) (c1w2 : FVec Ideal Sq .f32) (c1b2 : Fin 50 → EReal)
    (c2w1 : FVec Ideal Sq .f32) (c2b1 : Fin 50 → EReal) (c2w2 : FVec Ideal Sq .f32) (c2b2 : Fin 50 → EReal)
    (l1w : FVec Ideal Sq .f32) (l1b : Fin 50 → EReal) (z : EReal) (l3w : Fin 50 → EReal) (l3b : EReal) : FVec Ideal Col .f32 :=
  head (conv (conv x (agg x) c1w1 c1b1 c1w2 c1b2) (agg (conv x (agg x) c1w1 c1b1 c1w2 c1b2)) c2w1 c2b1 c2w2 c2b2) l1w l1b z l3w l3b

end Cert.GinSpec

end
-- ==== Proof.KRegion0.lean ====
/-
  The first pallas_call's result array as one function of the arrays it finds.

  The grid has 20 points; point `t` reads rows `5000 t … 5000 t + 4999` of the node table and of the aggregate, and the
  four weight and bias arrays whole, and writes back rows `5000 t …` of the result. What it writes is the body's value
  of those blocks (KBody), which at row `p`, feature `q` of the block is the specification's `conv` at row
  `5000 t + p`, feature `q` of the whole arrays: a row of `conv` depends on the same row of the table and of the
  aggregate only. The 20 blocks cover the array, so it ends holding `conv` of the arrays.
-/
import proofs.«177059_j90323162235465_1_alg».proof.Proof.Gen.KernelIdeal.Frame
import proofs.«177059_j90323162235465_1_alg».proof.Proof.KBody
import proofs.«177059_j90323162235465_1_alg».proof.Proof.Spec
import Idealize.ShloMosaic.Lib.Pipeline.Value

noncomputable section

open scoped BigOperators

namespace Cert.KernelIdeal.Region0

open Cert.KernelIdeal Cert.KernelIdeal.Gen Cert.KernelIdeal.Body
open Idealize.ShloMosaic Idealize.ShloMosaic.TcCoe Idealize.SL.Sem Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the seven windows at point `t`: the two row-blocked inputs and the output are at block row `t`,
    the four whole-array inputs at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array the region leaves: the convolution layer of the arrays it finds. -/
def result (c : Dev nD) : FVec Ideal Nodes .f32 :=
  conv (V c main_arg0) (V c main_v13) (V c main_arg2) (fun k => (V c main_v14 : S1x50.Idx → EReal) (ix2 (0 : Fin 1) k))
    (V c main_arg4) (fun k => (V c main_v15 : S1x50.Idx → EReal) (ix2 (0 : Fin 1) k))

/-- Row `p` of the table's block at point `t` is row `5000 t + p` of the table. -/
theorem rows_table (c : Dev nD) (t : Fin cfg0.N) (p : Fin 5000) (k : Fin 50) (h : 5000 * t.val + p.val < 100000) :
    (iblk0 V c 0 t : Vec Ideal S5000x50 .f32) (ix2 p k) = (V c main_arg0 : S100000x50.Idx → EReal) (ix2 ⟨5000 * t.val + p.val, h⟩ k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 50 + 1 * k.val = k.val; omega

/-- Row `p` of the aggregate's block at point `t` is row `5000 t + p` of the aggregate. -/
theorem rows_agg (c : Dev nD) (t : Fin cfg0.N) (p : Fin 5000) (k : Fin 50) (h : 5000 * t.val + p.val < 100000) :
    (iblk0 V c 1 t : Vec Ideal S5000x50 .f32) (ix2 p k) = (V c main_v13 : S100000x50.Idx → EReal) (ix2 ⟨5000 * t.val + p.val, h⟩ k) := by
  obtain ⟨-, -, e0, e1, -⟩ := idx_facts t
  unfold iblk0
  rw [View.read_apply]
  show V c main_v13 _ = V c main_v13 _
  refine congrArg _ (funext fun a => Fin.ext ?_)
  match a with
  | ⟨0, _⟩ => show win0_1.index t (0 : Fin 2) * 5000 + 1 * p.val = 5000 * t.val + p.val; omega
  | ⟨1, _⟩ => show win0_1.index t (1 : Fin 2) * 50 + 1 * k.val = k.val; omega

/-- The four whole-array windows' blocks are their arrays. -/
theorem whole_w1 (c : Dev nD) (t : Fin cfg0.N) (a b : Fin 50) :
    (iblk0 V c 2 t : Vec Ideal S50x50 .f32) (ix2 a b) = (V c main_arg2 : S50x50.Idx → EReal) (ix2 a b) := by
  obtain ⟨-, -, -, -, e0, e1, -⟩ := idx_facts t
  unfold iblk0
  rw [View.read_apply]
  show V c main_arg2 _ = V c main_arg2 _
  refine congrArg _ (funext fun d => Fin.ext ?_)
  match d with
  | ⟨0, _⟩ => show win0_2.index t (0 : Fin 2) * 50 + 1 * a.val = a.val; omega
  | ⟨1, _⟩ => show win0_2.index t (1 : Fin 2) * 50 + 1 * b.val = b.val; omega
theorem whole_b1 (c : Dev nD) (t : Fin cfg0.N) (a : Fin 1) (b : Fin 50) :
    (iblk0 V c 3 t : Vec Ideal S1x50 .f32) (ix2 a b) = (V c main_v14 : S1x50.Idx → EReal) (ix2 a b) := by
  obtain ⟨-, -, -, -, -, -, e0, e1, -⟩ := idx_facts t
  unfold iblk0
  rw [View.read_apply]
  show V c main_v14 _ = V c main_v14 _
  refine congrArg _ (funext fun d => Fin.ext ?_)
  match d with
  | ⟨0, _⟩ => show win0_3.index t (0 : Fin 2) * 1 + 1 * a.val = a.val; omega
  | ⟨1, _⟩ => show win0_3.index t (1 : Fin 2) * 50 + 1 * b.val = b.val; omega
theorem whole_w2 (c : Dev nD) (t : Fin cfg0.N) (a b : Fin 50) :
    (iblk0 V c 4 t : Vec Ideal S50x50 .f32) (ix2 a b) = (V c main_arg4 : S50x50.Idx → EReal) (ix2 a b) := by
  obtain ⟨-, -, -, -, -, -, -, -, e0, e1, -⟩ := idx_facts t
  unfold iblk0
  rw [View.read_apply]
  show V c main_arg4 _ = V c main_arg4 _
  refine congrArg _ (funext fun d => Fin.ext ?_)
  match d with
  | ⟨0, _⟩ => show win0_4.index t (0 : Fin 2) * 50 + 1 * a.val = a.val; omega
  | ⟨1, _⟩ => show win0_4.index t (1 : Fin 2) * 50 + 1 * b.val = b.val; omega
theorem whole_b2 (c : Dev nD) (t : Fin cfg0.N) (a : Fin 1) (b : Fin 50) :
    (iblk0 V c 5 t : Vec Ideal S1x50 .f32) (ix2 a b) = (V c main_v15 : S1x50.Idx → EReal) (ix2 a b) := by
  obtain ⟨-, -, -, -, -, -, -, -, -, -, e0, e1, -⟩ := idx_facts t
  unfold iblk0
  rw [View.read_apply]
  show V c main_v15 _ = V c main_v15 _
  refine congrArg _ (funext fun d => Fin.ext ?_)
  match d with
  | ⟨0, _⟩ => show win0_5.index t (0 : Fin 2) * 1 + 1 * a.val = a.val; omega
  | ⟨1, _⟩ => show win0_5.index t (1 : Fin 2) * 50 + 1 * b.val = b.val; omega

/-- WHAT POINT `t` WRITES BACK is block `t` of `result`. -/
theorem flushed_eq (c : Dev nD) (t : Fin cfg0.N) :
    (dat0 V c).flushed 6 t = ((cfg0.win 6).blk t).view.read (Elt Ideal) (result V c) := by
  have hN : cfg0.N = 20 := N_0
  have ht : t.val < 20 := by have := t.isLt; omega
  obtain ⟨-, -, -, -, -, -, -, -, -, -, -, -, e0, e1⟩ := idx_facts t
  show (cfg0.win 6).cut (grid0.coords t) ((dat0 V c).after 6 t) = _
  rw [after0_6]
  unfold out0_6
  rw [View.canon_unit_zero hz]
  simp only [View.ld_unit_zero (S := S5000x50) hz, View.ld_unit_zero (S := S50x50) hz, View.ld_unit_zero (S := S1x50) hz]
  funext j
  obtain ⟨p, q, rfl⟩ : ∃ (p : Fin 5000) (q : Fin 50), j = ix2 p q := ⟨j 0, j 1, eq_ix2 j⟩
  have hp : 5000 * t.val + p.val < 100000 := by have := p.isLt; omega
  refine (k0_pay1_apply (iblk0 V c 0 t) (iblk0 V c 1 t) (iblk0 V c 2 t) (iblk0 V c 3 t) (iblk0 V c 4 t) (iblk0 V c 5 t) p q).trans ?_
  rw [View.read_apply]
  have he : ((cfg0.win 6).blk t).view.emb (ix2 p q) = (ix2 (⟨5000 * t.val + p.val, hp⟩ : Fin 100000) q : S100000x50.Idx) := by
    funext a; apply Fin.ext
    match a with
    | ⟨0, _⟩ => show win0_6.index t (0 : Fin 2) * 5000 + 1 * p.val = 5000 * t.val + p.val; omega
    | ⟨1, _⟩ => show win0_6.index t (1 : Fin 2) * 50 + 1 * q.val = q.val; omega
  rw [he]
  unfold result
  rw [conv_apply]
  refine congrArg₂ (· + ·) (Finset.sum_congr rfl fun k _ => congrArg₂ (· * ·) (congrArg₂ (· + ·)
    (Finset.sum_congr rfl fun k' _ => congrArg₂ (· * ·) (congrArg₂ (· + ·) (rows_table V c t p k' hp) (rows_agg V c t p k' hp))
      (whole_w1 V c t k k')) (whole_b1 V c t 0 k)) (whole_w2 V c t q k)) (whole_b2 V c t 0 q)

/-- An index of the array is in point `t`'s block iff each coordinate is in the block's range on its axis. -/
theorem mem_blk (t : Fin cfg0.N) (i : S100000x50.Idx) :
    i ∈ ((cfg0.win 6).blk t).view.set ↔ ∀ a : Fin 2, win0_6.index t a * S5000x50.size a ≤ (i a).val ∧ (i a).val < win0_6.index t a * S5000x50.size a + S5000x50.size a := by
  show i ∈ ((View.whole main_v16).slice (win0_6.rect t)).set ↔ _
  rw [View.set_slice_whole, Rect.mem_set_unit]
  exact Iff.rfl

/-- Every row of the array is in the block of the point `row / 5000`. -/
theorem cover (i : S100000x50.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 50 := (i 1).isLt
  have ht : (i 0).val / 5000 < cfg0.N := by omega
  obtain ⟨-, -, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, ht⟩ (1 : Fin 2) * 50 ≤ (i 1).val ∧ (i 1).val < win0_6.index ⟨(i 0).val / 5000, ht⟩ (1 : Fin 2) * 50 + 50
    rw [e1]; omega

/-- THE ARRAY after the region: `result`. -/
theorem final (c : Dev nD) : (dat0 V c).arrAt 6 cfg0.N = result V c :=
  (dat0 V c).arrAt_eq_of_cover 6 (result V c) (fun t _ => flushed_eq V c t) cover

/-- `result` with each array it reads replaced by what that array is known to hold. -/
theorem result_eq (c : Dev nD) {x a : FVec Ideal Nodes .f32} {w1 w2 : FVec Ideal Sq .f32} {b1 b2 : Fin 50 → EReal}
    (ex : (V c main_arg0 : S100000x50.Idx → EReal) = x) (ea : (V c main_v13 : S100000x50.Idx → EReal) = a)
    (ew1 : (V c main_arg2 : S50x50.Idx → EReal) = w1) (eb1 : ∀ k : Fin 50, (V c main_v14 : S1x50.Idx → EReal) (ix2 (0 : Fin 1) k) = b1 k)
    (ew2 : (V c main_arg4 : S50x50.Idx → EReal) = w2) (eb2 : ∀ k : Fin 50, (V c main_v15 : S1x50.Idx → EReal) (ix2 (0 : Fin 1) k) = b2 k) :
    result V c = conv x a w1 b1 w2 b2 := by
  have hb1 : b1 = fun k => (V c main_v14 : S1x50.Idx → EReal) (ix2 (0 : Fin 1) k) := funext fun k => (eb1 k).symm
  have hb2 : b2 = fun k => (V c main_v15 : S1x50.Idx → EReal) (ix2 (0 : Fin 1) k) := funext fun k => (eb2 k).symm
  subst ex ea ew1 ew2 hb1 hb2
  rfl

end Cert.KernelIdeal.Region0

end
-- ==== Proof.KRegion1.lean ====
/-
  The second pallas_call's result array as one function of the arrays it finds.

  As in the first call the grid has 20 points and point `t` works on rows `5000 t … 5000 t + 4999`: of the first layer's
  result and of its aggregate on the way in, of the one-column result on the way out; the eight weight and bias arrays are
  read whole. The body's value (KBody) at row `p` of the block is the specification's second `conv` followed by `head` at row
  `5000 t + p` of the whole arrays, and the 20 blocks cover the result.
-/
import proofs.«177059_j90323162235465_1_alg».proof.Proof.Gen.KernelIdeal.Frame
import proofs.«177059_j90323162235465_1_alg».proof.Proof.KBody
import proofs.«177059_j90323162235465_1_alg».proof.Proof.Spec
import Idealize.ShloMosaic.Lib.Pipeline.Value

noncomputable section

open scoped BigOperators

namespace Cert.KernelIdeal.Region1

open Cert.KernelIdeal Cert.KernelIdeal.Gen Cert.KernelIdeal.Body
open Idealize.ShloMosaic Idealize.ShloMosaic.TcCoe Idealize.SL.Sem Idealize.ShloMosaic.ValueIdx Cert.GinSpec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the eleven windows at point `t`: the two row-blocked inputs and the output are at block row `t`,
    the eight whole-array inputs at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- The array the region leaves: the second convolution layer and the head, of the arrays it finds. -/
def result (c : Dev nD) : FVec Ideal Col .f32 :=
  head (conv (V c main_v16) (V c main_v26) (V c main_arg6) (fun k => (V c main_v27 : S1x50.Idx → EReal) (ix2 (0 : Fin 1) k))
      (V c main_arg8) (fun k => (V c main_v28 : S1x50.Idx → EReal) (ix2 (0 : Fin 1) k)))
    (V c main_arg10) (fun k => (V c main_v29 : S1x50.Idx → EReal) (ix2 (0 : Fin 1) k)) (Ideal.ofBits .f32 0x00000000#32)
    (fun k => (V c main_arg12 : S1x50.Idx → EReal) (ix2 (0 : Fin 1) k)) ((V c main_v30 : S1x1.Idx → EReal) (ix2 (0 : Fin 1) (0 : Fin 1)))

/-- The head of a convolution layer at one row, written out. -/
theorem head_conv_apply (x a : FVec Ideal Nodes .f32) (w1 : FVec Ideal Sq .f32) (b1 : Fin 50 → EReal) (w2 : FVec Ideal Sq .f32)
    (b2 : Fin 50 → EReal) (w3 : FVec Ideal Sq .f32) (b3 : Fin 50 → EReal) (z : EReal) (w4 : Fin 50 → EReal) (b4 : EReal)
    (r : Fin 100000) (u : Fin 1) :
    head (conv x a w1 b1 w2 b2) w3 b3 z w4 b4 (ix2 r u)
      = (∑ k : Fin 50, max ((∑ k3 : Fin 50, ((∑ k2 : Fin 50, ((∑ k1 : Fin 50, (x (ix2 r k1) + a (ix2 r k1)) * w1 (ix2 k2 k1)) + b1 k2)
            * w2 (ix2 k3 k2)) + b2 k3) * w3 (ix2 k k3)) + b3 k) z * w4 k) + b4 := rfl

/-- The body's stored value at row `p` of its block: three layers on the sum of the two input blocks, the clamp, the contraction. -/
theorem body_apply (x a : FVec Ideal S5000x50 .f32) (w1 : FVec Ideal S50x50 .f32) (b1 : FVec Ideal S1x50 .f32)
    (w2 : FVec Ideal S50x50 .f32) (b2 : FVec Ideal S1x50 .f32) (w3 : FVec Ideal S50x50 .f32) (b3 : FVec Ideal S1x50 .f32)
    (w4 : FVec Ideal S1x50 .f32) (b4 : FVec Ideal S1x1 .f32) (p : Fin 5000) (u : Fin 1) :
    k1_pay1 (F := Ideal) (k1_pay2 (F := Ideal) x a w1 b1 w2 b2 w3 b3) (k1_pay3 (F := Ideal) w4) b4 (ix2 p u)
      = (∑ k : Fin 50, max ((∑ k3 : Fin 50, ((∑ k2 : Fin 50, ((∑ k1 : Fin 50, (x (ix2 p k1) + a (ix2 p k1)) * w1 (ix2 k2 k1)) + b1 (ix2 (0 : Fin 1) k2))
            * w2 (ix2 k3 k2)) + b2 (ix2 (0 : Fin 1) k3)) * w3 (ix2 k k3)) + b3 (ix2 (0 : Fin 1) k)) (Ideal.ofBits .f32 0x00000000#32) * w4 (ix2 u k))
        + b4 (ix2 (0 : Fin 1) u) := by
  refine (k1_pay1_apply _ w4 b4 p u).trans ?_
  refine congrArg (· + b4 (ix2 (0 : Fin 1) u)) (Finset.sum_congr rfl fun k _ => ?_)
  rw [three_layers_apply]

/-- Row `p` of the table's block at point `t` is row `5000 t + p` of the table (the first layer's result). -/
theorem rows_table (c : Dev nD) (t : Fin cfg1.N) (p : Fin 5000) (k : Fin 50) (h : 5000 * t.val + p.val < 100000) :
    (iblk1 V c 0 t : Vec Ideal S5000x50 .f32) (ix2 p k) = (V c main_v16 : S100000x50.Idx → EReal) (ix2 ⟨5000 * t.val + p.val, h⟩ k) := by
  obtain ⟨e0, e1, -⟩ := idx_facts t
  unfold iblk1
  rw [View.read_apply]
  show V c main_v16 _ = V c main_v16 _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 50 + 1 * k.val = k.val; omega

/-- Row `p` of the aggregate's block at point `t` is row `5000 t + p` of the aggregate. -/
theorem rows_agg (c : Dev nD) (t : Fin cfg1.N) (p : Fin 5000) (k : Fin 50) (h : 5000 * t.val + p.val < 100000) :
    (iblk1 V c 1 t : Vec Ideal S5000x50 .f32) (ix2 p k) = (V c main_v26 : S100000x50.Idx → EReal) (ix2 ⟨5000 * t.val + p.val, h⟩ k) := by
  obtain ⟨-, -, e0, e1, -⟩ := idx_facts t
  unfold iblk1
  rw [View.read_apply]
  show V c main_v26 _ = V c main_v26 _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 50 + 1 * k.val = k.val; omega

/-! The eight whole-array windows' blocks are their arrays. -/
theorem w_c2w1 (c : Dev nD) (t : Fin cfg1.N) (a : Fin 50) (b : Fin 50) :
    (iblk1 V c 2 t : Vec Ideal S50x50 .f32) (ix2 a b) = (V c main_arg6 : S50x50.Idx → EReal) (ix2 a b) := by
  obtain ⟨-, -, -, -, e0, e1, -⟩ := idx_facts t
  unfold iblk1
  rw [View.read_apply]
  show V c main_arg6 _ = V c main_arg6 _
  refine congrArg _ (funext fun d => Fin.ext ?_)
  match d with
  | ⟨0, _⟩ => show win1_2.index t (0 : Fin 2) * 50 + 1 * a.val = a.val; omega
  | ⟨1, _⟩ => show win1_2.index t (1 : Fin 2) * 50 + 1 * b.val = b.val; omega
theorem w_c2b1 (c : Dev nD) (t : Fin cfg1.N) (a : Fin 1) (b : Fin 50) :
    (iblk1 V c 3 t : Vec Ideal S1x50 .f32) (ix2 a b) = (V c main_v27 : S1x50.Idx → EReal) (ix2 a b) := by
  obtain ⟨-, -, -, -, -, -, e0, e1, -⟩ := idx_facts t
  unfold iblk1
  rw [View.read_apply]
  show V c main_v27 _ = V c main_v27 _
  refine congrArg _ (funext fun d => Fin.ext ?_)
  match d with
  | ⟨0, _⟩ => show win1_3.index t (0 : Fin 2) * 1 + 1 * a.val = a.val; omega
  | ⟨1, _⟩ => show win1_3.index t (1 : Fin 2) * 50 + 1 * b.val = b.val; omega
theorem w_c2w2 (c : Dev nD) (t : Fin cfg1.N) (a : Fin 50) (b : Fin 50) :
    (iblk1 V c 4 t : Vec Ideal S50x50 .f32) (ix2 a b) = (V c main_arg8 : S50x50.Idx → EReal) (ix2 a b) := by
  obtain ⟨-, -, -, -, -, -, -, -, e0, e1, -⟩ := idx_facts t
  unfold iblk1
  rw [View.read_apply]
  show V c main_arg8 _ = V c main_arg8 _
  refine congrArg _ (funext fun d => Fin.ext ?_)
  match d with
  | ⟨0, _⟩ => show win1_4.index t (0 : Fin 2) * 50 + 1 * a.val = a.val; omega
  | ⟨1, _⟩ => show win1_4.index t (1 : Fin 2) * 50 + 1 * b.val = b.val; omega
theorem w_c2b2 (c : Dev nD) (t : Fin cfg1.N) (a : Fin 1) (b : Fin 50) :
    (iblk1 V c 5 t : Vec Ideal S1x50 .f32) (ix2 a b) = (V c main_v28 : S1x50.Idx → EReal) (ix2 a b) := by
  obtain ⟨-, -, -, -, -, -, -, -, -, -, e0, e1, -⟩ := idx_facts t
  unfold iblk1
  rw [View.read_apply]
  show V c main_v28 _ = V c main_v28 _
  refine congrArg _ (funext fun d => Fin.ext ?_)
  match d with
  | ⟨0, _⟩ => show win1_5.index t (0 : Fin 2) * 1 + 1 * a.val = a.val; omega
  | ⟨1, _⟩ => show win1_5.index t (1 : Fin 2) * 50 + 1 * b.val = b.val; omega
theorem w_l1w (c : Dev nD) (t : Fin cfg1.N) (a : Fin 50) (b : Fin 50) :
    (iblk1 V c 6 t : Vec Ideal S50x50 .f32) (ix2 a b) = (V c main_arg10 : S50x50.Idx → EReal) (ix2 a b) := by
  obtain ⟨-, -, -, -, -, -, -, -, -, -, -, -, e0, e1, -⟩ := idx_facts t
  unfold iblk1
  rw [View.read_apply]
  show V c main_arg10 _ = V c main_arg10 _
  refine congrArg _ (funext fun d => Fin.ext ?_)
  match d with
  | ⟨0, _⟩ => show win1_6.index t (0 : Fin 2) * 50 + 1 * a.val = a.val; omega
  | ⟨1, _⟩ => show win1_6.index t (1 : Fin 2) * 50 + 1 * b.val = b.val; omega
theorem w_l1b (c : Dev nD) (t : Fin cfg1.N) (a : Fin 1) (b : Fin 50) :
    (iblk1 V c 7 t : Vec Ideal S1x50 .f32) (ix2 a b) = (V c main_v29 : S1x50.Idx → EReal) (ix2 a b) := by
  obtain ⟨-, -, -, -, -, -, -, -, -, -, -, -, -, -, e0, e1, -⟩ := idx_facts t
  unfold iblk1
  rw [View.read_apply]
  show V c main_v29 _ = V c main_v29 _
  refine congrArg _ (funext fun d => Fin.ext ?_)
  match d with
  | ⟨0, _⟩ => show win1_7.index t (0 : Fin 2) * 1 + 1 * a.val = a.val; omega
  | ⟨1, _⟩ => show win1_7.index t (1 : Fin 2) * 50 + 1 * b.val = b.val; omega
theorem w_l3w (c : Dev nD) (t : Fin cfg1.N) (a : Fin 1) (b : Fin 50) :
    (iblk1 V c 8 t : Vec Ideal S1x50 .f32) (ix2 a b) = (V c main_arg12 : S1x50.Idx → EReal) (ix2 a b) := by
  obtain ⟨-, -, -, -, -, -, -, -, -, -, -, -, -, -, -, -, e0, e1, -⟩ := idx_facts t
  unfold iblk1
  rw [View.read_apply]
  show V c main_arg12 _ = V c main_arg12 _
  refine congrArg _ (funext fun d => Fin.ext ?_)
  match d with
  | ⟨0, _⟩ => show win1_8.index t (0 : Fin 2) * 1 + 1 * a.val = a.val; omega
  | ⟨1, _⟩ => show win1_8.index t (1 : Fin 2) * 50 + 1 * b.val = b.val; omega
theorem w_l3b (c : Dev nD) (t : Fin cfg1.N) (a : Fin 1) (b : Fin 1) :
    (iblk1 V c 9 t : Vec Ideal S1x1 .f32) (ix2 a b) = (V c main_v30 : S1x1.Idx → EReal) (ix2 a b) := by
  obtain ⟨-, -, -, -, -, -, -, -, -, -, -, -, -, -, -, -, -, -, e0, e1, -⟩ := idx_facts t
  unfold iblk1
  rw [View.read_apply]
  show V c main_v30 _ = V c main_v30 _
  refine congrArg _ (funext fun d => Fin.ext ?_)
  match d with
  | ⟨0, _⟩ => show win1_9.index t (0 : Fin 2) * 1 + 1 * a.val = a.val; omega
  | ⟨1, _⟩ => show win1_9.index t (1 : Fin 2) * 1 + 1 * b.val = b.val; omega

/-- WHAT POINT `t` WRITES BACK is block `t` of `result`. -/
theorem flushed_eq (c : Dev nD) (t : Fin cfg1.N) :
    (dat1 V c).flushed 10 t = ((cfg1.win 10).blk t).view.read (Elt Ideal) (result V c) := by
  have hN : cfg1.N = 20 := N_1
  have ht : t.val < 20 := by have := t.isLt; omega
  obtain ⟨-, -, -, -, -, -, -, -, -, -, -, -, -, -, -, -, -, -, -, -, e0, e1⟩ := idx_facts t
  show (cfg1.win 10).cut (grid1.coords t) ((dat1 V c).after 10 t) = _
  rw [after1_10]
  unfold out1_10
  rw [View.canon_unit_zero hz]
  simp only [View.ld_unit_zero (S := S5000x50) hz, View.ld_unit_zero (S := S50x50) hz, View.ld_unit_zero (S := S1x50) hz,
    View.ld_unit_zero (S := S1x1) hz]
  funext j
  obtain ⟨p, u, rfl⟩ : ∃ (p : Fin 5000) (u : Fin 1), j = ix2 p u := ⟨j 0, j 1, eq_ix2 j⟩
  obtain rfl : u = 0 := Subsingleton.elim _ _
  have hp : 5000 * t.val + p.val < 100000 := by have := p.isLt; omega
  refine (body_apply (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) p 0).trans ?_
  rw [View.read_apply]
  have he : ((cfg1.win 10).blk t).view.emb (ix2 p (0 : Fin 1)) = (ix2 (⟨5000 * t.val + p.val, hp⟩ : Fin 100000) (0 : Fin 1) : S100000x1.Idx) := by
    funext a; apply Fin.ext
    match a with
    | ⟨0, _⟩ => show win1_10.index t (0 : Fin 2) * 5000 + 1 * p.val = 5000 * t.val + p.val; omega
    | ⟨1, _⟩ => show win1_10.index t (1 : Fin 2) * 1 + 1 * 0 = 0; omega
  rw [he]
  unfold result
  rw [head_conv_apply]
  refine congrArg₂ (· + ·) (Finset.sum_congr rfl fun k _ => congrArg₂ (· * ·) (congrArg₂ max (congrArg₂ (· + ·)
    (Finset.sum_congr rfl fun k3 _ => congrArg₂ (· * ·) (congrArg₂ (· + ·)
      (Finset.sum_congr rfl fun k2 _ => congrArg₂ (· * ·) (congrArg₂ (· + ·)
        (Finset.sum_congr rfl fun k1 _ => congrArg₂ (· * ·) (congrArg₂ (· + ·) (rows_table V c t p k1 hp) (rows_agg V c t p k1 hp))
          (w_c2w1 V c t k2 k1)) (w_c2b1 V c t 0 k2)) (w_c2w2 V c t k3 k2)) (w_c2b2 V c t 0 k3)) (w_l1w V c t k k3)) (w_l1b V c t 0 k)) rfl)
    (w_l3w V c t 0 k)) (w_l3b V c t 0 0)

/-- An index of the array is in point `t`'s block iff each coordinate is in the block's range on its axis. -/
theorem mem_blk (t : Fin cfg1.N) (i : S100000x1.Idx) :
    i ∈ ((cfg1.win 10).blk t).view.set ↔ ∀ a : Fin 2, win1_10.index t a * S5000x1.size a ≤ (i a).val ∧ (i a).val < win1_10.index t a * S5000x1.size a + S5000x1.size a := by
  show i ∈ ((View.whole main_v31).slice (win1_10.rect t)).set ↔ _
  rw [View.set_slice_whole, Rect.mem_set_unit]
  exact Iff.rfl

/-- Every row of the array is in the block of the point `row / 5000`. -/
theorem cover (i : S100000x1.Idx) : ∃ t : Fin cfg1.N, (cfg1.win 10).flush t = true ∧ i ∈ ((cfg1.win 10).blk t).view.set := by
  have hN : cfg1.N = 20 := N_1
  have hi0 : (i 0).val < 100000 := (i 0).isLt
  have hi1 : (i 1).val < 1 := (i 1).isLt
  have ht : (i 0).val / 5000 < cfg1.N := by omega
  obtain ⟨-, -, -, -, -, -, -, -, -, -, -, -, -, -, -, -, -, -, -, -, e0, e1⟩ := idx_facts ⟨(i 0).val / 5000, ht⟩
  refine ⟨⟨(i 0).val / 5000, ht⟩, flush1_10 _, ?_⟩
  rw [mem_blk]
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_10.index ⟨(i 0).val / 5000, ht⟩ (1 : Fin 2) * 1 ≤ (i 1).val ∧ (i 1).val < win1_10.index ⟨(i 0).val / 5000, ht⟩ (1 : Fin 2) * 1 + 1
    rw [e1]; omega

/-- THE ARRAY after the region: `result`. -/
theorem final (c : Dev nD) : (dat1 V c).arrAt 10 cfg1.N = result V c :=
  (dat1 V c).arrAt_eq_of_cover 10 (result V c) (fun t _ => flushed_eq V c t) cover

/-- `result` with each array it reads replaced by what that array is known to hold. -/
theorem result_eq (c : Dev nD) {x a : FVec Ideal Nodes .f32} {w1 w2 w3 : FVec Ideal Sq .f32} {b1 b2 b3 w4 : Fin 50 → EReal} {b4 : EReal}
    (ex : (V c main_v16 : S100000x50.Idx → EReal) = x) (ea : (V c main_v26 : S100000x50.Idx → EReal) = a)
    (ew1 : (V c main_arg6 : S50x50.Idx → EReal) = w1) (eb1 : ∀ k : Fin 50, (V c main_v27 : S1x50.Idx → EReal) (ix2 (0 : Fin 1) k) = b1 k)
    (ew2 : (V c main_arg8 : S50x50.Idx → EReal) = w2) (eb2 : ∀ k : Fin 50, (V c main_v28 : S1x50.Idx → EReal) (ix2 (0 : Fin 1) k) = b2 k)
    (ew3 : (V c main_arg10 : S50x50.Idx → EReal) = w3) (eb3 : ∀ k : Fin 50, (V c main_v29 : S1x50.Idx → EReal) (ix2 (0 : Fin 1) k) = b3 k)
    (ew4 : ∀ k : Fin 50, (V c main_arg12 : S1x50.Idx → EReal) (ix2 (0 : Fin 1) k) = w4 k)
    (eb4 : (V c main_v30 : S1x1.Idx → EReal) (ix2 (0 : Fin 1) (0 : Fin 1)) = b4) :
    result V c = head (conv x a w1 b1 w2 b2) w3 b3 (Ideal.ofBits .f32 0x00000000#32) w4 b4 := by
  have hb1 : b1 = fun k => (V c main_v27 : S1x50.Idx → EReal) (ix2 (0 : Fin 1) k) := funext fun k => (eb1 k).symm
  have hb2 : b2 = fun k => (V c main_v28 : S1x50.Idx → EReal) (ix2 (0 : Fin 1) k) := funext fun k => (eb2 k).symm
  have hb3 : b3 = fun k => (V c main_v29 : S1x50.Idx → EReal) (ix2 (0 : Fin 1) k) := funext fun k => (eb3 k).symm
  have hw4 : w4 = fun k => (V c main_arg12 : S1x50.Idx → EReal) (ix2 (0 : Fin 1) k) := funext fun k => (ew4 k).symm
  subst ex ea ew1 ew2 ew3 hb1 hb2 hb3 hw4 eb4
  rfl

end Cert.KernelIdeal.Region1

end
-- ==== Proof.KValue.lean ====
/-
  The idealized kernel's result array as the specification's network of the launch arguments.

  The buffer contents at @main's segment boundaries are a fold (`W0` … `W4`). Read through it: before the first call
  the arguments are as launched, the aggregate buffer holds `aggregate` of the edge array and the input table, the two bias
  buffers hold the bias vectors as one-row matrices; the first call leaves `conv` of these (KRegion0); the host stretch
  between the calls leaves the first result in place, aggregates it along the same edges, and reshapes four more
  vectors; the second call leaves `head (conv …)` of these (KRegion1). Put together that is `network`.
-/
import proofs.«177059_j90323162235465_1_alg».proof.Proof.Gen.KernelIdeal.Frame
import proofs.«177059_j90323162235465_1_alg».proof.Proof.KRegion0
import proofs.«177059_j90323162235465_1_alg».proof.Proof.KRegion1
import Idealize.ShloMosaic.Lib.StableHlo.Run
import Idealize.ShloMosaic.Lib.ValueLayout
import Idealize.ShloMosaic.PureOps.Ideal

noncomputable section

namespace Cert.KernelIdeal.Whole

open Cert.KernelIdeal Cert.KernelIdeal.Gen
open Idealize.ShloMosaic Idealize.ShloMosaic.TcCoe Idealize.SL.Sem Idealize.ShloMosaic.StableHlo Idealize.ShloMosaic.ValueIdx Cert.GinSpec

variable (m : (ℓ : Loc nD τ sig) → Buf (Elt Ideal) ℓ) (ρ : Dev nD → PrngReg)

/-! ## The aggregation along the edges -/

/-- Row 0 of the edge array: the edge sources. -/
def sources (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000
/-- Row 1 of the edge array: the edge targets. -/
def targets (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000
/-- The rows of `h` at the sources (a negative source counted from the end) gathered, and scatter-added from zero at the
    targets. -/
def aggregateOf (src tgt : (⟨S1600000, .i32⟩ : BufTy).Contents (Elt Ideal)) (h : FVec Ideal S100000x50 .f32) : FVec Ideal S100000x50 .f32 :=
  Host.scatterAdd (F := Ideal) (φ := .f32) scatter_S100000x50_S1600000x1_S1600000x50_1_0_0_1
    (broadcastInDim S100000x50 ![] bcast_S_S100000x50 (constant (F := Ideal) S_ .f32 0x00000000#32))
    (broadcastInDim S1600000x1 ![0] bcast_S1600000_S1600000x1_0 tgt)
    (Host.gather gather_S100000x50_S1600000x1_S1600000x50_1_0_n_n_0_1_150 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))
/-- The aggregation of a node table along the edges `e`. -/
def aggregate (e : (⟨S2x1600000, .i32⟩ : BufTy).Contents (Elt Ideal)) (h : FVec Ideal S100000x50 .f32) : FVec Ideal S100000x50 .f32 :=
  aggregateOf (sources e) (targets e) h

/-- A bias vector as a function of the feature. -/
abbrev feat (b : (⟨S50, .f32⟩ : BufTy).Contents (Elt Ideal)) : Fin 50 → EReal := fun k => b (ix1 k)

/-! ## Before the first call -/
theorem w1_arg0 (c : Dev nD) : W1 m ρ c (Proc.devRef .tc main_arg0) = (m ((c : Thread nD τ).loc main_arg0)) := by
  show StableHlo.after hostOps0 _ _ = _; after_results
theorem w1_arg2 (c : Dev nD) : W1 m ρ c (Proc.devRef .tc main_arg2) = (m ((c : Thread nD τ).loc main_arg2)) := by
  show StableHlo.after hostOps0 _ _ = _; after_results
theorem w1_arg4 (c : Dev nD) : W1 m ρ c (Proc.devRef .tc main_arg4) = (m ((c : Thread nD τ).loc main_arg4)) := by
  show StableHlo.after hostOps0 _ _ = _; after_results
theorem w1_sources (c : Dev nD) : W1 m ρ c (Proc.devRef .tc main_v1) = sources (m ((c : Thread nD τ).loc main_arg1)) := by
  show StableHlo.after hostOps0 _ _ = _; after_results
  rfl
theorem w1_targets (c : Dev nD) : W1 m ρ c (Proc.devRef .tc main_v3) = targets (m ((c : Thread nD τ).loc main_arg1)) := by
  show StableHlo.after hostOps0 _ _ = _; after_results
  rfl
theorem w1_agg (c : Dev nD) : W1 m ρ c (Proc.devRef .tc main_v13) = aggregate (m ((c : Thread nD τ).loc main_arg1)) (m ((c : Thread nD τ).loc main_arg0)) := by
  show StableHlo.after hostOps0 _ _ = _; after_results
  rfl
theorem w1_b1 (c : Dev nD) : W1 m ρ c (Proc.devRef .tc main_v14) = shapeCast S1x50 (m ((c : Thread nD τ).loc main_arg3)) shapeCasts_S50_S1x50 := by
  show StableHlo.after hostOps0 _ _ = _; after_results
  rfl
theorem w1_b2 (c : Dev nD) : W1 m ρ c (Proc.devRef .tc main_v15) = shapeCast S1x50 (m ((c : Thread nD τ).loc main_arg5)) shapeCasts_S50_S1x50 := by
  show StableHlo.after hostOps0 _ _ = _; after_results
  rfl

/-- The first layer's result, of the launch arguments. -/
abbrev layer1 (c : Dev nD) : FVec Ideal Nodes .f32 :=
  conv (m ((c : Thread nD τ).loc main_arg0)) (aggregate (m ((c : Thread nD τ).loc main_arg1)) (m ((c : Thread nD τ).loc main_arg0))) (m ((c : Thread nD τ).loc main_arg2)) (feat (m ((c : Thread nD τ).loc main_arg3))) (m ((c : Thread nD τ).loc main_arg4)) (feat (m ((c : Thread nD τ).loc main_arg5)))

/-! ## After the first call -/

/-- The first call leaves the first layer's result in its output array. -/
theorem w2_layer1 (c : Dev nD) : W2 m ρ c (Proc.devRef .tc main_v16) = layer1 m c :=
  ((W2_arr m ρ c 6).trans (Region0.final (V1 m ρ) c)).trans
    (Region0.result_eq (V1 m ρ) c (w1_arg0 m ρ c) (w1_agg m ρ c) (w1_arg2 m ρ c)
      (fun k => (congrFun (w1_b1 m ρ c) (ix2 (0 : Fin 1) k)).trans (shapeCast_a_1a_apply _ _ 0 k))
      (w1_arg4 m ρ c)
      (fun k => (congrFun (w1_b2 m ρ c) (ix2 (0 : Fin 1) k)).trans (shapeCast_a_1a_apply _ _ 0 k)))
theorem w2_sources (c : Dev nD) : W2 m ρ c (Proc.devRef .tc main_v1) = sources (m ((c : Thread nD τ).loc main_arg1)) :=
  (W2_of_ne m ρ c main_v1 (by decide)).trans (w1_sources m ρ c)
theorem w2_targets (c : Dev nD) : W2 m ρ c (Proc.devRef .tc main_v3) = targets (m ((c : Thread nD τ).loc main_arg1)) :=
  (W2_of_ne m ρ c main_v3 (by decide)).trans (w1_targets m ρ c)
theorem w2_arg6 (c : Dev nD) : W2 m ρ c (Proc.devRef .tc main_arg6) = (m ((c : Thread nD τ).loc main_arg6)) :=
  (W2_of_ne m ρ c main_arg6 (by decide)).trans (by show StableHlo.after hostOps0 _ _ = _; after_results)
theorem w2_arg7 (c : Dev nD) : W2 m ρ c (Proc.devRef .tc main_arg7) = (m ((c : Thread nD τ).loc main_arg7)) :=
  (W2_of_ne m ρ c main_arg7 (by decide)).trans (by show StableHlo.after hostOps0 _ _ = _; after_results)
theorem w2_arg8 (c : Dev nD) : W2 m ρ c (Proc.devRef .tc main_arg8) = (m ((c : Thread nD τ).loc main_arg8)) :=
  (W2_of_ne m ρ c main_arg8 (by decide)).trans (by show StableHlo.after hostOps0 _ _ = _; after_results)
theorem w2_arg9 (c : Dev nD) : W2 m ρ c (Proc.devRef .tc main_arg9) = (m ((c : Thread nD τ).loc main_arg9)) :=
  (W2_of_ne m ρ c main_arg9 (by decide)).trans (by show StableHlo.after hostOps0 _ _ = _; after_results)
theorem w2_arg10 (c : Dev nD) : W2 m ρ c (Proc.devRef .tc main_arg10) = (m ((c : Thread nD τ).loc main_arg10)) :=
  (W2_of_ne m ρ c main_arg10 (by decide)).trans (by show StableHlo.after hostOps0 _ _ = _; after_results)
theorem w2_arg11 (c : Dev nD) : W2 m ρ c (Proc.devRef .tc main_arg11) = (m ((c : Thread nD τ).loc main_arg11)) :=
  (W2_of_ne m ρ c main_arg11 (by decide)).trans (by show StableHlo.after hostOps0 _ _ = _; after_results)
theorem w2_arg12 (c : Dev nD) : W2 m ρ c (Proc.devRef .tc main_arg12) = (m ((c : Thread nD τ).loc main_arg12)) :=
  (W2_of_ne m ρ c main_arg12 (by decide)).trans (by show StableHlo.after hostOps0 _ _ = _; after_results)
theorem w2_arg13 (c : Dev nD) : W2 m ρ c (Proc.devRef .tc main_arg13) = (m ((c : Thread nD τ).loc main_arg13)) :=
  (W2_of_ne m ρ c main_arg13 (by decide)).trans (by show StableHlo.after hostOps0 _ _ = _; after_results)

/-! ## Before the second call -/

theorem w3_layer1 (c : Dev nD) : W3 m ρ c (Proc.devRef .tc main_v16) = layer1 m c := by
  refine Eq.trans ?_ (w2_layer1 m ρ c)
  show StableHlo.after hostOps1 _ _ = _; after_results
theorem w3_agg (c : Dev nD) : W3 m ρ c (Proc.devRef .tc main_v26) = aggregate (m ((c : Thread nD τ).loc main_arg1)) (layer1 m c) := by
  have e : W3 m ρ c (Proc.devRef .tc main_v26)
      = aggregateOf (W2 m ρ c (Proc.devRef .tc main_v1)) (W2 m ρ c (Proc.devRef .tc main_v3)) (W2 m ρ c (Proc.devRef .tc main_v16)) := by
    show StableHlo.after hostOps1 _ _ = _; after_results
    rfl
  rw [e, w2_sources, w2_targets, w2_layer1]
  rfl
theorem w3_arg6 (c : Dev nD) : W3 m ρ c (Proc.devRef .tc main_arg6) = (m ((c : Thread nD τ).loc main_arg6)) := by
  refine Eq.trans ?_ (w2_arg6 m ρ c)
  show StableHlo.after hostOps1 _ _ = _; after_results
theorem w3_arg8 (c : Dev nD) : W3 m ρ c (Proc.devRef .tc main_arg8) = (m ((c : Thread nD τ).loc main_arg8)) := by
  refine Eq.trans ?_ (w2_arg8 m ρ c)
  show StableHlo.after hostOps1 _ _ = _; after_results
theorem w3_arg10 (c : Dev nD) : W3 m ρ c (Proc.devRef .tc main_arg10) = (m ((c : Thread nD τ).loc main_arg10)) := by
  refine Eq.trans ?_ (w2_arg10 m ρ c)
  show StableHlo.after hostOps1 _ _ = _; after_results
theorem w3_arg12 (c : Dev nD) : W3 m ρ c (Proc.devRef .tc main_arg12) = (m ((c : Thread nD τ).loc main_arg12)) := by
  refine Eq.trans ?_ (w2_arg12 m ρ c)
  show StableHlo.after hostOps1 _ _ = _; after_results
theorem w3_v27 (c : Dev nD) : W3 m ρ c (Proc.devRef .tc main_v27) = shapeCast S1x50 (m ((c : Thread nD τ).loc main_arg7)) shapeCasts_S50_S1x50 := by
  have e : W3 m ρ c (Proc.devRef .tc main_v27) = shapeCast S1x50 (W2 m ρ c (Proc.devRef .tc main_arg7)) shapeCasts_S50_S1x50 := by
    show StableHlo.after hostOps1 _ _ = _; after_results
    rfl
  rw [e, w2_arg7]
theorem w3_v28 (c : Dev nD) : W3 m ρ c (Proc.devRef .tc main_v28) = shapeCast S1x50 (m ((c : Thread nD τ).loc main_arg9)) shapeCasts_S50_S1x50 := by
  have e : W3 m ρ c (Proc.devRef .tc main_v28) = shapeCast S1x50 (W2 m ρ c (Proc.devRef .tc main_arg9)) shapeCasts_S50_S1x50 := by
    show StableHlo.after hostOps1 _ _ = _; after_results
    rfl
  rw [e, w2_arg9]
theorem w3_v29 (c : Dev nD) : W3 m ρ c (Proc.devRef .tc main_v29) = shapeCast S1x50 (m ((c : Thread nD τ).loc main_arg11)) shapeCasts_S50_S1x50 := by
  have e : W3 m ρ c (Proc.devRef .tc main_v29) = shapeCast S1x50 (W2 m ρ c (Proc.devRef .tc main_arg11)) shapeCasts_S50_S1x50 := by
    show StableHlo.after hostOps1 _ _ = _; after_results
    rfl
  rw [e, w2_arg11]
theorem w3_v30 (c : Dev nD) : W3 m ρ c (Proc.devRef .tc main_v30) = shapeCast S1x1 (m ((c : Thread nD τ).loc main_arg13)) shapeCasts_S1_S1x1 := by
  have e : W3 m ρ c (Proc.devRef .tc main_v30) = shapeCast S1x1 (W2 m ρ c (Proc.devRef .tc main_arg13)) shapeCasts_S1_S1x1 := by
    show StableHlo.after hostOps1 _ _ = _; after_results
    rfl
  rw [e, w2_arg13]

/-! ## After the second call -/

/-- THE RESULT ARRAY is the network of the launch arguments. -/
theorem value (c : Dev nD) :
    W4 m ρ c (Proc.devRef .tc main_v31)
      = network (aggregate (m ((c : Thread nD τ).loc main_arg1))) (m ((c : Thread nD τ).loc main_arg0)) (m ((c : Thread nD τ).loc main_arg2)) (feat (m ((c : Thread nD τ).loc main_arg3))) (m ((c : Thread nD τ).loc main_arg4)) (feat (m ((c : Thread nD τ).loc main_arg5))) (m ((c : Thread nD τ).loc main_arg6)) (feat (m ((c : Thread nD τ).loc main_arg7))) (m ((c : Thread nD τ).loc main_arg8)) (feat (m ((c : Thread nD τ).loc main_arg9)))
          (m ((c : Thread nD τ).loc main_arg10)) (feat (m ((c : Thread nD τ).loc main_arg11))) (Ideal.ofBits .f32 0x00000000#32) (fun k => (m ((c : Thread nD τ).loc main_arg12)) (ix2 (0 : Fin 1) k)) ((m ((c : Thread nD τ).loc main_arg13)) (ix1 (0 : Fin 1))) :=
  ((W4_arr m ρ c 10).trans (Region1.final (V3 m ρ) c)).trans
    (Region1.result_eq (V3 m ρ) c (w3_layer1 m ρ c) (w3_agg m ρ c) (w3_arg6 m ρ c)
      (fun k => (congrFun (w3_v27 m ρ c) (ix2 (0 : Fin 1) k)).trans (shapeCast_a_1a_apply _ _ 0 k))
      (w3_arg8 m ρ c)
      (fun k => (congrFun (w3_v28 m ρ c) (ix2 (0 : Fin 1) k)).trans (shapeCast_a_1a_apply _ _ 0 k))
      (w3_arg10 m ρ c)
      (fun k => (congrFun (w3_v29 m ρ c) (ix2 (0 : Fin 1) k)).trans (shapeCast_a_1a_apply _ _ 0 k))
      (fun k => congrFun (w3_arg12 m ρ c) (ix2 (0 : Fin 1) k))
      ((congrFun (w3_v30 m ρ c) (ix2 (0 : Fin 1) (0 : Fin 1))).trans (shapeCast_a_1a_apply _ _ 0 0)))

end Cert.KernelIdeal.Whole

end
-- ==== Proof.RefStages.lean ====
/-
  The reference, stage by stage, is the specification's network.

  The reference computes on whole arrays: it aggregates (a gather of the table's rows at the edge sources, a
  scatter-add at the edge targets), adds, multiplies by the transposed weights, adds the broadcast bias. Read at one
  index each of these is the corresponding term of `GinSpec.lin`: a product with a transposed matrix reads
  `Σ_k h (r, k) · w (j, k)`, a bias broadcast along the rows reads `b j`. The two aggregations are not opened: they are one
  function `aggregate e` of the table, the same in both layers.
-/
import proofs.«177059_j90323162235465_1_alg».proof.Proof.Gen.ReferenceIdeal.Run
import proofs.«177059_j90323162235465_1_alg».proof.Proof.Gen.ReferenceIdeal.Read
import proofs.«177059_j90323162235465_1_alg».proof.Proof.Spec

noncomputable section

open scoped BigOperators

namespace Cert.ReferenceIdeal.Stages

open Cert.ReferenceIdeal Cert.ReferenceIdeal.Gen Cert.ReferenceIdeal.Read
open Idealize.ShloMosaic Idealize.ShloMosaic.TcCoe Idealize.ShloMosaic.ValueIdx Cert.GinSpec

/-- Two rank-2 (rank-1) indices with the same coordinates are equal. -/
local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

/-- A bias vector as a function of the feature. -/
abbrev feat (b : (⟨S50, .f32⟩ : BufTy).Contents (Elt Ideal)) : Fin 50 → EReal := fun k => b (ix1 k)

/-- The aggregation of a node table along the edges `e`: the rows at the (normalised) edge sources gathered, then
    scatter-added from zero at the edge targets. -/
def aggregate (e : (⟨S2x1600000, .i32⟩ : BufTy).Contents (Elt Ideal)) (h : (⟨S100000x50, .f32⟩ : BufTy).Contents (Elt Ideal)) :
    (⟨S100000x50, .f32⟩ : BufTy).Contents (Elt Ideal) :=
  Host.scatterAdd (F := Ideal) (φ := .f32) scatter_S100000x50_S1600000x1_S1600000x50_1_0_0_1 (val_main_v11 (F := Ideal)) (val_main_v12 (F := Ideal) e)
    (Host.gather gather_S100000x50_S1600000x1_S1600000x50_1_0_n_n_0_1_150 h (val_main_v9 (F := Ideal) e))

/-- The first layer's aggregate is `aggregate` of the input table. -/
theorem agg1 (x0 : (⟨S100000x50, .f32⟩ : BufTy).Contents (Elt Ideal)) (x1 : (⟨S2x1600000, .i32⟩ : BufTy).Contents (Elt Ideal)) :
    val_main_v13 (F := Ideal) x0 x1 = aggregate x1 x0 := rfl

/-- The first convolution layer. -/
theorem stage1 (x0 : (⟨S100000x50, .f32⟩ : BufTy).Contents (Elt Ideal)) (x1 : (⟨S2x1600000, .i32⟩ : BufTy).Contents (Elt Ideal))
    (x2 : (⟨S50x50, .f32⟩ : BufTy).Contents (Elt Ideal)) (x3 : (⟨S50, .f32⟩ : BufTy).Contents (Elt Ideal))
    (x4 : (⟨S50x50, .f32⟩ : BufTy).Contents (Elt Ideal)) (x5 : (⟨S50, .f32⟩ : BufTy).Contents (Elt Ideal)) :
    val_main_v24 (F := Ideal) x0 x1 x2 x3 x4 x5 = conv x0 (aggregate x1 x0) x2 (feat x3) x4 (feat x5) := by
  funext i
  obtain ⟨r, j, rfl⟩ : ∃ (r : Fin 100000) (j : Fin 50), i = ix2 r j := ⟨i 0, i 1, eq_ix2 i⟩
  rw [conv_apply, val_main_v24_apply, val_main_v21_apply, val_main_v23_apply, val_main_v22_apply, Ideal.addf_def]
  refine congrArg₂ (· + ·) (Finset.sum_congr rfl fun k _ => ?_) (congrArg x5 ?_)
  · rw [val_main_v19_apply, val_main_v16_apply, val_main_v18_apply, val_main_v17_apply, val_main_v20_apply, Ideal.addf_def]
    refine congrArg₂ (· * ·) (congrArg₂ (· + ·) (Finset.sum_congr rfl fun k' _ => ?_) (congrArg x3 ?_)) (congrArg x4 ?_)
    · rw [val_main_v14_apply, val_main_v15_apply, Ideal.addf_def, agg1]
      refine congrArg₂ (· * ·) (congrArg₂ (· + ·) (congrArg x0 ?_) (congrArg (aggregate x1 x0) ?_)) (congrArg x2 ?_)
      · idx2
      · idx2
      · idx2
    · idx1
    · idx2
  · idx1

/-- The second layer aggregates the first layer's result by the same function: its zero table, its target indices and its
    source indices are the first layer's, term for term. -/
theorem agg2 (x0 : (⟨S100000x50, .f32⟩ : BufTy).Contents (Elt Ideal)) (x1 : (⟨S2x1600000, .i32⟩ : BufTy).Contents (Elt Ideal))
    (x2 : (⟨S50x50, .f32⟩ : BufTy).Contents (Elt Ideal)) (x3 : (⟨S50, .f32⟩ : BufTy).Contents (Elt Ideal))
    (x4 : (⟨S50x50, .f32⟩ : BufTy).Contents (Elt Ideal)) (x5 : (⟨S50, .f32⟩ : BufTy).Contents (Elt Ideal)) :
    val_main_v34 (F := Ideal) x0 x1 x2 x3 x4 x5 = aggregate x1 (val_main_v24 (F := Ideal) x0 x1 x2 x3 x4 x5) := by
  have e1 : val_main_v32 (F := Ideal) = val_main_v11 (F := Ideal) := rfl
  have e2 : val_main_v33 (F := Ideal) x1 = val_main_v12 (F := Ideal) x1 := rfl
  have e3 : val_main_v30 (F := Ideal) x1 = val_main_v9 (F := Ideal) x1 := rfl
  unfold val_main_v34 val_main_v31 aggregate
  rw [e1, e2, e3]

/-- The second convolution layer, on the first one's result. -/
theorem stage2 (x0 : (⟨S100000x50, .f32⟩ : BufTy).Contents (Elt Ideal)) (x1 : (⟨S2x1600000, .i32⟩ : BufTy).Contents (Elt Ideal))
    (x2 : (⟨S50x50, .f32⟩ : BufTy).Contents (Elt Ideal)) (x3 : (⟨S50, .f32⟩ : BufTy).Contents (Elt Ideal))
    (x4 : (⟨S50x50, .f32⟩ : BufTy).Contents (Elt Ideal)) (x5 : (⟨S50, .f32⟩ : BufTy).Contents (Elt Ideal))
    (x6 : (⟨S50x50, .f32⟩ : BufTy).Contents (Elt Ideal)) (x7 : (⟨S50, .f32⟩ : BufTy).Contents (Elt Ideal))
    (x8 : (⟨S50x50, .f32⟩ : BufTy).Contents (Elt Ideal)) (x9 : (⟨S50, .f32⟩ : BufTy).Contents (Elt Ideal)) :
    val_main_v45 (F := Ideal) x0 x1 x2 x3 x4 x5 x6 x7 x8 x9
      = conv (val_main_v24 (F := Ideal) x0 x1 x2 x3 x4 x5) (aggregate x1 (val_main_v24 (F := Ideal) x0 x1 x2 x3 x4 x5)) x6 (feat x7) x8 (feat x9) := by
  funext i
  obtain ⟨r, j, rfl⟩ : ∃ (r : Fin 100000) (j : Fin 50), i = ix2 r j := ⟨i 0, i 1, eq_ix2 i⟩
  rw [conv_apply, val_main_v45_apply, val_main_v42_apply, val_main_v44_apply, val_main_v43_apply, Ideal.addf_def]
  refine congrArg₂ (· + ·) (Finset.sum_congr rfl fun k _ => ?_) (congrArg x9 ?_)
  · rw [val_main_v40_apply, val_main_v37_apply, val_main_v39_apply, val_main_v38_apply, val_main_v41_apply, Ideal.addf_def]
    refine congrArg₂ (· * ·) (congrArg₂ (· + ·) (Finset.sum_congr rfl fun k' _ => ?_) (congrArg x7 ?_)) (congrArg x8 ?_)
    · rw [val_main_v35_apply, val_main_v36_apply, Ideal.addf_def, agg2]
      refine congrArg₂ (· * ·) (congrArg₂ (· + ·) (congrArg (val_main_v24 (F := Ideal) x0 x1 x2 x3 x4 x5) ?_)
        (congrArg (aggregate x1 (val_main_v24 (F := Ideal) x0 x1 x2 x3 x4 x5)) ?_)) (congrArg x6 ?_)
      · idx2
      · idx2
      · idx2
    · idx1
    · idx2
  · idx1

/-- The head, on the second layer's result. -/
theorem stage3 (x0 : (⟨S100000x50, .f32⟩ : BufTy).Contents (Elt Ideal)) (x1 : (⟨S2x1600000, .i32⟩ : BufTy).Contents (Elt Ideal))
    (x2 : (⟨S50x50, .f32⟩ : BufTy).Contents (Elt Ideal)) (x3 : (⟨S50, .f32⟩ : BufTy).Contents (Elt Ideal))
    (x4 : (⟨S50x50, .f32⟩ : BufTy).Contents (Elt Ideal)) (x5 : (⟨S50, .f32⟩ : BufTy).Contents (Elt Ideal))
    (x6 : (⟨S50x50, .f32⟩ : BufTy).Contents (Elt Ideal)) (x7 : (⟨S50, .f32⟩ : BufTy).Contents (Elt Ideal))
    (x8 : (⟨S50x50, .f32⟩ : BufTy).Contents (Elt Ideal)) (x9 : (⟨S50, .f32⟩ : BufTy).Contents (Elt Ideal))
    (x10 : (⟨S50x50, .f32⟩ : BufTy).Contents (Elt Ideal)) (x11 : (⟨S50, .f32⟩ : BufTy).Contents (Elt Ideal))
    (x12 : (⟨S1x50, .f32⟩ : BufTy).Contents (Elt Ideal)) (x13 : (⟨S1, .f32⟩ : BufTy).Contents (Elt Ideal)) :
    val_main_v56 (F := Ideal) x0 x1 x2 x3 x4 x5 x6 x7 x8 x9 x10 x11 x12 x13
      = head (val_main_v45 (F := Ideal) x0 x1 x2 x3 x4 x5 x6 x7 x8 x9) x10 (feat x11) (Ideal.ofBits .f32 0x00000000#32)
          (fun k => x12 (ix2 (0 : Fin 1) k)) (x13 (ix1 (0 : Fin 1))) := by
  funext i
  obtain ⟨r, u, rfl⟩ : ∃ (r : Fin 100000) (u : Fin 1), i = ix2 r u := ⟨i 0, i 1, eq_ix2 i⟩
  obtain rfl : u = 0 := Subsingleton.elim _ _
  rw [head_apply, val_main_v56_apply, val_main_v53_apply, val_main_v55_apply, val_main_v54_apply, Ideal.addf_def]
  refine congrArg₂ (· + ·) (Finset.sum_congr rfl fun k _ => ?_) (congrArg x13 ?_)
  · rw [val_main_v51_apply, val_main_v50_apply, val_main_v47_apply, val_main_v49_apply, val_main_v48_apply, val_main_call0_v0_apply,
      val_main_call0_cst_apply, val_main_v52_apply, Ideal.maximumf_def, Ideal.addf_def, Ideal.ofBits_def]
    refine congrArg₂ (· * ·) (congrArg₂ max (congrArg₂ (· + ·) (Finset.sum_congr rfl fun k' _ => ?_) (congrArg x11 ?_)) rfl) (congrArg x12 ?_)
    · rw [val_main_v46_apply]
      refine congrArg₂ (· * ·) (congrArg (val_main_v45 (F := Ideal) x0 x1 x2 x3 x4 x5 x6 x7 x8 x9) ?_) (congrArg x10 ?_)
      · idx2
      · idx2
    · idx1
    · idx2
  · idx1

/-- The reference's result is the specification's network of its arguments, aggregating by `aggregate` of the edge array. -/
theorem result_eq (x0 : (⟨S100000x50, .f32⟩ : BufTy).Contents (Elt Ideal)) (x1 : (⟨S2x1600000, .i32⟩ : BufTy).Contents (Elt Ideal))
    (x2 : (⟨S50x50, .f32⟩ : BufTy).Contents (Elt Ideal)) (x3 : (⟨S50, .f32⟩ : BufTy).Contents (Elt Ideal))
    (x4 : (⟨S50x50, .f32⟩ : BufTy).Contents (Elt Ideal)) (x5 : (⟨S50, .f32⟩ : BufTy).Contents (Elt Ideal))
    (x6 : (⟨S50x50, .f32⟩ : BufTy).Contents (Elt Ideal)) (x7 : (⟨S50, .f32⟩ : BufTy).Contents (Elt Ideal))
    (x8 : (⟨S50x50, .f32⟩ : BufTy).Contents (Elt Ideal)) (x9 : (⟨S50, .f32⟩ : BufTy).Contents (Elt Ideal))
    (x10 : (⟨S50x50, .f32⟩ : BufTy).Contents (Elt Ideal)) (x11 : (⟨S50, .f32⟩ : BufTy).Contents (Elt Ideal))
    (x12 : (⟨S1x50, .f32⟩ : BufTy).Contents (Elt Ideal)) (x13 : (⟨S1, .f32⟩ : BufTy).Contents (Elt Ideal)) :
    val_main_v56 (F := Ideal) x0 x1 x2 x3 x4 x5 x6 x7 x8 x9 x10 x11 x12 x13
      = network (aggregate x1) x0 x2 (feat x3) x4 (feat x5) x6 (feat x7) x8 (feat x9) x10 (feat x11) (Ideal.ofBits .f32 0x00000000#32)
          (fun k => x12 (ix2 (0 : Fin 1) k)) (x13 (ix1 (0 : Fin 1))) := by
  rw [stage3, stage2, stage1]
  rfl

end Cert.ReferenceIdeal.Stages

end
-- ==== Proof.lean ====
/-
  The certificate: two graph-convolution layers and a head, computed by two pallas_calls with the edge aggregation on the
  host, against the same network written in jnp.

  Both programs aggregate with the same host operations (a gather of the node table's rows at the edge sources, a
  scatter-add at the edge targets), so the aggregation is carried as one unopened function of the table. Around it both
  compute, row by row, `Σ_k h (r, k) · w (j, k) + b j` three times over (twice in each convolution layer, once in the head),
  a clamp below at zero and one contraction against a weight row: the kernel in blocks of 5000 rows through matrix products
  of operands rounded to bf16 (the identity on extended reals), the reference on whole arrays through `dot_general` with
  the transposed weights. Written index by index the two are the same sums over `k : Fin 50` in the same order, so no law
  of the extended reals is needed and the precondition is never opened (Spec: the common function; KBody, KRegion0,
  KRegion1, KValue: the kernel computes it; RefStages: so does the reference).

  The three frames: the kernel's two are the generated frame certificates, the reference's is its generated run with the
  result dropped. The idealization rewrote nothing, so `preserves` is `True`.
-/
import proofs.«177059_j90323162235465_1_alg».proof.Defs
import proofs.«177059_j90323162235465_1_alg».proof.Proof.Gen.Kernel
import proofs.«177059_j90323162235465_1_alg».proof.Proof.Gen.Kernel.Skeleton
import proofs.«177059_j90323162235465_1_alg».proof.Proof.Gen.Kernel.Launch
import proofs.«177059_j90323162235465_1_alg».proof.Proof.Gen.Kernel.Points
import proofs.«177059_j90323162235465_1_alg».proof.Proof.Gen.Kernel.Frame
import proofs.«177059_j90323162235465_1_alg».proof.Proof.Gen.KernelIdeal
import proofs.«177059_j90323162235465_1_alg».proof.Proof.Gen.KernelIdeal.Skeleton
import proofs.«177059_j90323162235465_1_alg».proof.Proof.Gen.KernelIdeal.Launch
import proofs.«177059_j90323162235465_1_alg».proof.Proof.Gen.KernelIdeal.Points
import proofs.«177059_j90323162235465_1_alg».proof.Proof.Gen.KernelIdeal.Frame
import proofs.«177059_j90323162235465_1_alg».proof.Proof.Gen.ReferenceIdeal
import proofs.«177059_j90323162235465_1_alg».proof.Proof.Gen.ReferenceIdeal.Run
import proofs.«177059_j90323162235465_1_alg».proof.Proof.Gen.ReferenceIdeal.Read
import proofs.«177059_j90323162235465_1_alg».proof.Proof.Gen.Pre_finite_inputs
import proofs.«177059_j90323162235465_1_alg».proof.Proof.KNamedRun
import proofs.«177059_j90323162235465_1_alg».proof.Proof.KValue
import proofs.«177059_j90323162235465_1_alg».proof.Proof.RefStages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The two programs aggregate by the same function: the same slices of the edge array, the same normalisation of a
    negative source, the same gather and scatter-add, operation for operation. -/
theorem aggregate_eq (e : (⟨Cert.KernelIdeal.S2x1600000, .i32⟩ : BufTy).Contents (Elt Ideal)) :
    Cert.ReferenceIdeal.Stages.aggregate e = Cert.KernelIdeal.Whole.aggregate e := rfl

/-- At `Ideal` the kernel's result array ends at the network of its arguments (KNamedRun, KValue) and so does the
    reference's (its generated run, RefStages), of arguments that agree. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.Whole.value m ρ c), (h c).2⟩)
    (Cert.KernelIdeal.Named.run (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v56_eq, Cert.ReferenceIdeal.Stages.result_eq, h0, h1, h2, h3, h4, h5, h6, h7, h8, h9, h10, h11,
    h12, h13, aggregate_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
